-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S2x128 .f32) (main_arg6 : FVec F S128x64 .f32) (main_arg7 : FVec F S64 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S2x128x128 .f32) (main_arg5 : FVec F S2x128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S1x128x128 : Shape := ⟨3, ![1, 128, 128]⟩
abbrev S128x128 : Shape := ⟨2, ![128, 128]⟩
abbrev S850000x128 : Shape := ⟨2, ![850000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 102
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S2x128x128, .f32⟩
  | .hbm, ⟨5, _⟩ => ⟨S2x128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S1x128, .f32⟩
  | .hbm, ⟨49, _⟩ => ⟨S50000x128, .f32⟩
  | .hbm, ⟨50, _⟩ => ⟨S_, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x128, .f32⟩
  | .hbm, ⟨65, _⟩ => ⟨S850000x1, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S850000x1, .f32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S1x128, .f32⟩
  | .hbm, ⟨97, _⟩ => ⟨S128, .f32⟩
  | .hbm, ⟨98, _⟩ => ⟨S1x128, .f32⟩
  | .hbm, ⟨99, _⟩ => ⟨S50000x128, .f32⟩
  | .hbm, ⟨100, _⟩ => ⟨S1x64, .f32⟩
  | .hbm, ⟨101, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S128 : S_.BroadcastsInDim S128 (![] : Fin 0 → Fin S128.rank)
  slices_S2x128x128_S1x128x128_0_0_0 : S2x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S2x128x128, .f32⟩
  | .hbm, ⟨5, _⟩ => ⟨S2x128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S_, .f32⟩
  | .hbm, ⟨54, _⟩ => ⟨S50000x128, .f32⟩
  | .hbm, ⟨55, _⟩ => ⟨S50000x128, .i1⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S_, .f32⟩
  | .hbm, ⟨86, _⟩ => ⟨S50000x128, .f32⟩
  | .hbm, ⟨87, _⟩ => ⟨S50000x128, .i1⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128x128, .f32⟩
  | .hbm, ⟨93, _⟩ => ⟨S128x128, .f32⟩
  | .hbm, ⟨94, _⟩ => ⟨S1x128, .f32⟩
  | .hbm, ⟨95, _⟩ => ⟨S128, .f32⟩
  | .hbm, ⟨96, _⟩ => ⟨S50000x128, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x1, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S_, .f32⟩
  | .hbm, ⟨118, _⟩ => ⟨S50000x128, .f32⟩
  | .hbm, ⟨119, _⟩ => ⟨S50000x128, .i1⟩
  | .hbm, ⟨120, _⟩ => ⟨S_, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x64, .f32⟩
  | .hbm, ⟨125, _⟩ => ⟨S1x64, .f32⟩
  | .hbm, ⟨126, _⟩ => ⟨S50000x64, .f32⟩
  | .hbm, ⟨127, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_v62 : Ref sig .tc := ⟨.hbm, 98, rfl⟩
abbrev main_v63 : Ref sig .tc := ⟨.hbm, 99, rfl⟩
abbrev main_c_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_14 : Ref sig .tc := ⟨.hbm, 116, rfl⟩
abbrev main_call3_cst : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S850000x1_S850000x128_0_1 : S850000x1.BroadcastsInDim S850000x128 (![0, 1] : Fin 2 → Fin S850000x128.rank)
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its result named.

  From any memory with zero counters every weakly fair execution of the program on the TensorCores terminates without
  a fault; the final state holds, in the result buffer, what the last boundary of the program's fourteen segments (eight
  stretches of host operations and six tiled kernels, in order) holds there, and the eight argument arrays as launched.
  The boundary contents are a fold from the launch memory: a stretch's operations applied in order, a kernel's arrays at
  what its write-backs leave.
-/
import proofs.«178511_j28037546508929_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v76) = W14 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v76 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Named

end
-- ==== Proof.Spec.lean ====
/-
  The function both programs compute, written once over the host operations of the reference.

  A two-layer graph convolution network on 50000 nodes and 800000 directed edges. Every node also gets a self loop,
  so there are 850000 endpoints on each side: `src e` and `dst e` are the two rows of the edge list each followed by
  `0, 1, …, 49999`. `deg e` counts, per node, the edges that end there (a scatter-add of ones), `dinv e` is
  `deg^(-1/2)` where the degree is positive and `0` elsewhere, and `norm e` is, per edge, the product of `dinv` at its two
  endpoints (an index below zero is first moved up by 50000, as a negative index counts from the end).
  The features: `enc` is `leaky (x · W + b)`; one layer `layer e h W b` is `leaky (agg e (h · W) + b)` where
  `agg e t` sums, into each node, the rows of `t` at the sources of the edges that end there, each scaled by the
  edge's `norm`; the result `out` is two layers followed by `h · W + b`. `leaky z` is `z` where `z ≥ 0` and
  `0.1 · z` elsewhere, the slope being the single-precision word nearest `0.1`.
  The pieces a tiled kernel produces one at a time (`encLin`, `lin128`, `biasAct`, `decLin`) are named so that each
  can be met separately; a bias enters them already laid out as one row.
-/
import proofs.«178511_j28037546508929_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- Arrays of 32-bit integers and of single-precision numbers read as extended reals. -/
abbrev IArr (s : Shape) := IVec s 32
abbrev FArr (s : Shape) := FVec Ideal s .f32

/-! ## The edge list -/

/-- Row 0 of the edge list (the sources) followed by the self loops `0 … 49999`. -/
def src (e : IArr S2x800000) : IArr S850000 :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- Row 1 of the edge list (the targets) followed by the self loops. -/
def dst (e : IArr S2x800000) : IArr S850000 :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- A list of node numbers as a column of one-entry index vectors. -/
def col (ix : IArr S850000) : IArr S850000x1 :=
  broadcastInDim S850000x1 ![0] bcast_S850000_S850000x1_0 ix

/-- The same with a negative number first moved up by the number of nodes. -/
def wrapCol (ix : IArr S850000) : IArr S850000x1 :=
  col (select (cmpi .slt ix (broadcastInDim S850000 ![] bcast_S_S850000 (constantI S_ 32 0#32)))
    (addi ix (broadcastInDim S850000 ![] bcast_S_S850000 (constantI S_ 32 50000#32))) ix)

/-- The number of edges ending at each node. -/
def deg (e : IArr S2x800000) : FArr S50000 :=
  Host.scatterAdd scatter_S50000_S850000x1_S850000_n_0_0_1
    (broadcastInDim S50000 ![] bcast_S_S50000 (constant S_ .f32 0x00000000#32)) (col (dst e))
    (broadcastInDim S850000 ![] bcast_S_S850000 (constant S_ .f32 0x3F800000#32))

/-- `deg^(-1/2)` where the degree is positive, `0` elsewhere. -/
def dinv (e : IArr S2x800000) : FArr S50000 :=
  select (cmpf .ogt (deg e) (broadcastInDim S50000 ![] bcast_S_S50000 (constant S_ .f32 0x00000000#32)))
    (Host.rsqrt (deg e)) (broadcastInDim S50000 ![] bcast_S_S50000 (constant S_ .f32 0x00000000#32))

/-- Per edge, the product of `dinv` at its source and at its target. -/
def norm (e : IArr S2x800000) : FArr S850000 :=
  mulf (Host.gather gather_S50000_S850000x1_S850000_n_0_n_n_0_1_1 (dinv e) (wrapCol (src e)))
    (Host.gather gather_S50000_S850000x1_S850000_n_0_n_n_0_1_1 (dinv e) (wrapCol (dst e)))

/-! ## The pointwise pieces -/

/-- `z` where `z ≥ 0`, the slope times `z` elsewhere. -/
def leaky (a : FArr S50000x128) : FArr S50000x128 :=
  select (cmpf .oge a (broadcastInDim S50000x128 ![] bcast_S_S50000x128 (constant S_ .f32 0x00000000#32))) a
    (mulf (broadcastInDim S50000x128 ![] bcast_S_S50000x128 (constant S_ .f32 0x3DCCCCCD#32)) a)

/-- A vector of 128 entries as one row, and that row repeated over the 50000 nodes. -/
def row128 (b : FArr S128) : FArr S1x128 := broadcastInDim S1x128 ![1] bcast_S128_S1x128_1 b
def rows128 (b2 : FArr S1x128) : FArr S50000x128 := broadcastInDim S50000x128 ![0, 1] bcast_S1x128_S50000x128_0_1 b2
/-- The same at width 64. -/
def row64 (b : FArr S64) : FArr S1x64 := broadcastInDim S1x64 ![1] bcast_S64_S1x64_1 b
def rows64 (b2 : FArr S1x64) : FArr S50000x64 := broadcastInDim S50000x64 ![0, 1] bcast_S1x64_S50000x64_0_1 b2

/-! ## The dense pieces -/

/-- `x · W + b` on the input features, the bias given as a row. -/
def encLin (x : FArr S50000x256) (w : FArr S256x128) (b2 : FArr S1x128) : FArr S50000x128 :=
  addf (Host.dotGeneral dot_S50000x256_S256x128_S50000x128_1_0_0_1_n_n none x w) (rows128 b2)

/-- `h · W` at width 128. -/
def lin128 (h : FArr S50000x128) (w : FArr S128x128) : FArr S50000x128 :=
  Host.dotGeneral dot_S50000x128_S128x128_S50000x128_1_0_0_1_n_n none h w

/-- `leaky (a + b)`, the bias given as a row. -/
def biasAct (a : FArr S50000x128) (b2 : FArr S1x128) : FArr S50000x128 := leaky (addf a (rows128 b2))

/-- `h · W + b` onto the 64 outputs, the bias given as a row. -/
def decLin (h : FArr S50000x128) (w : FArr S128x64) (b2 : FArr S1x64) : FArr S50000x64 :=
  addf (Host.dotGeneral dot_S50000x128_S128x64_S50000x64_1_0_0_1_n_n none h w) (rows64 b2)

/-! ## Message passing -/

/-- Into each node, the sum over the edges ending there of the source's row of `t` times the edge's `norm`. -/
def agg (e : IArr S2x800000) (t : FArr S50000x128) : FArr S50000x128 :=
  Host.scatterAdd scatter_S50000x128_S850000x1_S850000x128_1_0_0_1
    (broadcastInDim S50000x128 ![] bcast_S_S50000x128 (constant S_ .f32 0x00000000#32)) (col (dst e))
    (mulf (Host.gather gather_S50000x128_S850000x1_S850000x128_1_0_n_n_0_1_1128 t (wrapCol (src e)))
      (broadcastInDim S850000x128 ![0, 1] bcast_S850000x1_S850000x128_0_1
        (broadcastInDim S850000x1 ![0] bcast_S850000_S850000x1_0 (norm e))))

/-! ## The layers' parameters -/

def convW0 (cw : FArr S2x128x128) : FArr S128x128 :=
  shapeCast S128x128 (extractStridedSlice S1x128x128 ![0, 0, 0] cw slices_S2x128x128_S1x128x128_0_0_0) shapeCasts_S1x128x128_S128x128
def convW1 (cw : FArr S2x128x128) : FArr S128x128 :=
  shapeCast S128x128 (extractStridedSlice S1x128x128 ![1, 0, 0] cw slices_S2x128x128_S1x128x128_1_0_0) shapeCasts_S1x128x128_S128x128
def convB0 (cb : FArr S2x128) : FArr S128 :=
  shapeCast S128 (extractStridedSlice S1x128 ![0, 0] cb slices_S2x128_S1x128_0_0) shapeCasts_S1x128_S128
def convB1 (cb : FArr S2x128) : FArr S128 :=
  shapeCast S128 (extractStridedSlice S1x128 ![1, 0] cb slices_S2x128_S1x128_1_0) shapeCasts_S1x128_S128

/-! ## The network -/

/-- The encoder. -/
def enc (x : FArr S50000x256) (w : FArr S256x128) (b : FArr S128) : FArr S50000x128 := leaky (encLin x w (row128 b))

/-- One graph convolution. -/
def layer (e : IArr S2x800000) (h : FArr S50000x128) (w : FArr S128x128) (b : FArr S128) : FArr S50000x128 :=
  biasAct (agg e (lin128 h w)) (row128 b)

/-- The whole network. -/
def out (x : FArr S50000x256) (e : IArr S2x800000) (ew : FArr S256x128) (eb : FArr S128) (cw : FArr S2x128x128)
    (cb : FArr S2x128) (dw : FArr S128x64) (db : FArr S64) : FArr S50000x64 :=
  decLin (layer e (layer e (enc x ew eb) (convW0 cw) (convB0 cb)) (convW1 cw) (convB1 cb)) dw (row64 db)

end Cert.Spec

end
-- ==== Proof.SpecFacts.lean ====
/-
  Small facts about the pieces of the network's function, read at an entry.

  A bias laid out as one row and repeated over the nodes reads, at `(P, q)`, the row at `q`; a vector put on axis 1
  of a one-row array is that vector cast to one row; and the leaky rectifier at an entry depends only on its
  argument at that entry, so two arrays that agree at a pair of entries have equal rectified values there.
-/
import proofs.«178511_j28037546508929_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Spec

open Idealize.ShloMosaic Idealize.ShloMosaic.ValueIdx Cert.ReferenceIdeal Cert.ReferenceIdeal.Facts₀ Cert.ReferenceIdeal.Facts

/-- The row repeated over the 50000 nodes, at `(P, q)`, is the row at `q`. -/
theorem bcast_S_S128z : S_.BroadcastsInDim S128 (![] : Fin 0 → Fin S128.rank) := by decide

theorem rows128_apply (b2 : FArr S1x128) (P : Fin 50000) (q : Fin 128) : rows128 b2 (ix2 P q) = b2 (ix2 (0 : Fin 1) q) := by
  unfold rows128
  refine broadcastInDim_apply _ _ b2 (ix2 P q) (ix2 (0 : Fin 1) q) fun a => ?_
  match a with
  | ⟨0, _⟩ => rfl
  | ⟨1, _⟩ => rfl

/-- The same at width 64. -/
theorem rows64_apply (b2 : FArr S1x64) (P : Fin 50000) (q : Fin 64) : rows64 b2 (ix2 P q) = b2 (ix2 (0 : Fin 1) q) := by
  unfold rows64
  refine broadcastInDim_apply _ _ b2 (ix2 P q) (ix2 (0 : Fin 1) q) fun a => ?_
  match a with
  | ⟨0, _⟩ => rfl
  | ⟨1, _⟩ => rfl

/-- A vector put on axis 1 of a one-row array is the vector cast to one row. -/
theorem row128_eq_cast (b : FArr S128) (h : S128.ShapeCasts S1x128) : row128 b = shapeCast S1x128 b h := by
  funext j
  obtain ⟨u, q, rfl⟩ : ∃ (u : Fin 1) (q : Fin 128), j = ix2 u q := ⟨j 0, j 1, eq_ix2 j⟩
  unfold row128
  rw [shapeCast_a_1a_apply b h u q]
  refine broadcastInDim_apply _ _ b (ix2 u q) (ix1 q) fun a => ?_
  match a with
  | ⟨0, _⟩ => rfl

/-- The same at width 64. -/
theorem row64_eq_cast (b : FArr S64) (h : S64.ShapeCasts S1x64) : row64 b = shapeCast S1x64 b h := by
  funext j
  obtain ⟨u, q, rfl⟩ : ∃ (u : Fin 1) (q : Fin 64), j = ix2 u q := ⟨j 0, j 1, eq_ix2 j⟩
  unfold row64
  rw [shapeCast_a_1a_apply b h u q]
  refine broadcastInDim_apply _ _ b (ix2 u q) (ix1 q) fun a => ?_
  match a with
  | ⟨0, _⟩ => rfl

/-- The leaky rectifier of a block, its constants splat scalars, at an entry where the block agrees with an array is the
    array's rectified value there. -/
theorem leaky_entry {s : Shape} (u : FVec Ideal s .f32) (v : FArr S50000x128) (i : s.Idx) (j : S50000x128.Idx)
    (huv : (u i : EReal) = v j) :
    select (cmpf .oge u (broadcast s (Scalar.ofBits (F := Ideal) .f32 0x00000000#32))) u
        (mulf (broadcast s (Scalar.ofBits (F := Ideal) .f32 0x3DCCCCCD#32)) u) i = leaky v j := by
  unfold leaky
  show Scalar.select (FloatOps.cmpf .oge (u i) _) (u i) (FloatOps.mulf _ (u i))
    = Scalar.select (FloatOps.cmpf .oge (v j) _) (v j) (FloatOps.mulf _ (v j))
  rw [huv]
  rfl

/-- `h · W + b` at width 128, the bias given as a row: what a dense layer's kernel leaves before any host operation. -/
def linRow (h : FArr S50000x128) (w : FArr S128x128) (b2 : FArr S1x128) : FArr S50000x128 := addf (lin128 h w) (rows128 b2)

/-- The zero vector of 128 entries cast to one row. -/
def zeroRow (h : S128.ShapeCasts S1x128) : FArr S1x128 :=
  shapeCast S1x128 (broadcastInDim S128 ![] bcast_S_S128z (constant (F := Ideal) S_ .f32 0x00000000#32)) h

/-- Adding the zero row changes nothing: `a + 0 = a` on the extended reals, the infinities included. -/
theorem linRow_zero (h : FArr S50000x128) (w : FArr S128x128) (hc : S128.ShapeCasts S1x128) :
    linRow h w (zeroRow hc) = lin128 h w := by
  funext j
  obtain ⟨P, q, rfl⟩ : ∃ (P : Fin 50000) (q : Fin 128), j = ix2 P q := ⟨j 0, j 1, eq_ix2 j⟩
  unfold linRow
  show FloatOps.addf (lin128 h w (ix2 P q)) (rows128 (zeroRow hc) (ix2 P q)) = _
  rw [rows128_apply]
  unfold zeroRow
  rw [shapeCast_a_1a_apply _ hc (0 : Fin 1) q]
  show lin128 h w (ix2 P q) + Ideal.ofBits .f32 0x00000000#32 = _
  rw [Ideal.ofBits_zero_f32, add_zero]

/-! ## The shared pieces as functions of their parts

The same pieces with the endpoint lists, the inverse square roots and the normalisation as arguments: what a stretch of host
operations computes from buffers filled earlier. Each is the corresponding piece of the network by unfolding. -/

/-- Where the degree is positive; its inverse square root; the scalar zero. -/
def degPos (e : IArr S2x800000) : IVec S50000 1 :=
  cmpf .ogt (deg e) (broadcastInDim S50000 ![] bcast_S_S50000 (constant (F := Ideal) S_ .f32 0x00000000#32))
def degRsqrt (e : IArr S2x800000) : FArr S50000 := Host.rsqrt (deg e)
def zero0 : FArr S_ := constant S_ .f32 0x00000000#32

/-- The selection of the inverse square root where the degree is positive, the broadcast scalar elsewhere. -/
def dinvOf (p : IVec S50000 1) (r : FArr S50000) (z : FArr S_) : FArr S50000 :=
  select p r (broadcastInDim S50000 ![] bcast_S_S50000 z)
theorem dinv_eq (e : IArr S2x800000) : dinv e = dinvOf (degPos e) (degRsqrt e) zero0 := rfl

/-- The per-edge product of the inverse square roots at the two endpoints. -/
def normOf (di : FArr S50000) (s d : IArr S850000) : FArr S850000 :=
  mulf (Host.gather gather_S50000_S850000x1_S850000_n_0_n_n_0_1_1 di (wrapCol s))
    (Host.gather gather_S50000_S850000x1_S850000_n_0_n_n_0_1_1 di (wrapCol d))
theorem norm_eq (e : IArr S2x800000) : norm e = normOf (dinv e) (src e) (dst e) := rfl

/-- The scaled rows at the sources summed into the targets. -/
def aggOf (s d : IArr S850000) (n : FArr S850000) (t : FArr S50000x128) : FArr S50000x128 :=
  Host.scatterAdd scatter_S50000x128_S850000x1_S850000x128_1_0_0_1
    (broadcastInDim S50000x128 ![] bcast_S_S50000x128 (constant S_ .f32 0x00000000#32)) (col d)
    (mulf (Host.gather gather_S50000x128_S850000x1_S850000x128_1_0_n_n_0_1_1128 t (wrapCol s))
      (broadcastInDim S850000x128 ![0, 1] bcast_S850000x1_S850000x128_0_1
        (broadcastInDim S850000x1 ![0] bcast_S850000_S850000x1_0 n)))
theorem agg_eq (e : IArr S2x800000) (t : FArr S50000x128) : agg e t = aggOf (src e) (dst e) (norm e) t := rfl

/-- The zero vector of 128 entries. -/
def zeros128 : FArr S128 := broadcastInDim S128 ![] bcast_S_S128z (constant (F := Ideal) S_ .f32 0x00000000#32)
theorem zeroRow_eq (h : S128.ShapeCasts S1x128) : zeroRow h = shapeCast S1x128 zeros128 h := rfl

end Cert.Spec

end
-- ==== Proof.KHost.lean ====
/-
  The host operations between the kernels, read one stretch at a time over an arbitrary valuation of the buffers.

  Before the first kernel the program builds the edge list's two endpoint lists, the per-edge normalisation and the
  encoder's bias as a row; before each layer's dense kernel it cuts the layer's weight out of the stacked weights and lays a
  zero vector out as a row; between a layer's two kernels it gathers the transformed rows at the edges' sources, scales
  them, sums them into the edges' targets, and lays the layer's bias out as a row; before the decoder it lays the decoder's
  bias out as a row. Each stretch writes only its own results, so every other buffer is read after it as before it.
-/
import proofs.«178511_j28037546508929_1_alg».proof.Proof.Gen.KernelIdeal.Launch
import proofs.«178511_j28037546508929_1_alg».proof.Proof.SpecFacts
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable (W : Valuation τ sig (Elt Ideal))

attribute [local irreducible] Host.gather Host.scatterAdd Host.rsqrt

/-! ## Before the encoder: the endpoint lists and the degrees -/

theorem a_src : after hostOps0 W (Proc.devRef .tc main_v3) = Cert.Spec.src (W (Proc.devRef .tc main_arg1)) := by
  after_results_simp
  rfl

theorem a_dst : after hostOps0 W (Proc.devRef .tc main_v6) = Cert.Spec.dst (W (Proc.devRef .tc main_arg1)) := by
  after_results_simp
  rfl

theorem a_pos : after hostOps0 W (Proc.devRef .tc main_v12) = Cert.Spec.degPos (W (Proc.devRef .tc main_arg1)) := by
  after_results_simp
  rfl

theorem a_rsqrt : after hostOps0 W (Proc.devRef .tc main_v13) = Cert.Spec.degRsqrt (W (Proc.devRef .tc main_arg1)) := by
  after_results_simp
  rfl

theorem a_zero : after hostOps0 W (Proc.devRef .tc main_cst_2) = Cert.Spec.zero0 := by
  after_results_simp
  rfl

/-! ## The inverse square roots of the degrees -/

theorem b_dinv : after hostOps0_1 W (Proc.devRef .tc main_v14)
    = Cert.Spec.dinvOf (W (Proc.devRef .tc main_v12)) (W (Proc.devRef .tc main_v13)) (W (Proc.devRef .tc main_cst_2)) := by
  after_results_simp
  rfl

/-! ## The per-edge normalisation and the encoder's bias as a row -/

theorem c_norm : after hostOps0_2 W (Proc.devRef .tc main_v29)
    = Cert.Spec.normOf (W (Proc.devRef .tc main_v14)) (W (Proc.devRef .tc main_v3)) (W (Proc.devRef .tc main_v6)) := by
  after_results_simp
  rfl

theorem c_bias : after hostOps0_2 W (Proc.devRef .tc main_v30) = shapeCast S1x128 (W (Proc.devRef .tc main_arg3)) shapeCasts_S128_S1x128 := by
  after_results_simp
  rfl

/-! ## Before the first layer's dense kernel -/

theorem d_weight : after hostOps1 W (Proc.devRef .tc main_v34) = Cert.Spec.convW0 (W (Proc.devRef .tc main_arg4)) := by
  after_results_simp
  rfl

theorem d_zeros : after hostOps1 W (Proc.devRef .tc main_v32) = Cert.Spec.zeros128 := by
  after_results_simp
  rfl

theorem d_zeroRow : after hostOps1 W (Proc.devRef .tc main_v35) = Cert.Spec.zeroRow shapeCasts_S128_S1x128 := by
  after_results_simp
  rfl

/-! ## Between the first layer's two kernels -/

theorem e_agg : after hostOps2 W (Proc.devRef .tc main_v49)
    = Cert.Spec.aggOf (W (Proc.devRef .tc main_v3)) (W (Proc.devRef .tc main_v6)) (W (Proc.devRef .tc main_v29)) (W (Proc.devRef .tc main_v36)) := by
  after_results_simp
  rfl

theorem e_bias : after hostOps2 W (Proc.devRef .tc main_v52)
    = shapeCast S1x128 (Cert.Spec.convB0 (W (Proc.devRef .tc main_arg5))) shapeCasts_S128_S1x128 := by
  after_results_simp
  rfl

/-! ## Before the second layer's dense kernel -/

theorem f_weight : after hostOps3 W (Proc.devRef .tc main_v55) = Cert.Spec.convW1 (W (Proc.devRef .tc main_arg4)) := by
  after_results_simp
  rfl

theorem f_zeroRow : after hostOps3 W (Proc.devRef .tc main_v56) = shapeCast S1x128 (W (Proc.devRef .tc main_v32)) shapeCasts_S128_S1x128 := by
  after_results_simp
  rfl

/-! ## Between the second layer's two kernels -/

theorem g_agg : after hostOps4 W (Proc.devRef .tc main_v70)
    = Cert.Spec.aggOf (W (Proc.devRef .tc main_v3)) (W (Proc.devRef .tc main_v6)) (W (Proc.devRef .tc main_v29)) (W (Proc.devRef .tc main_v57)) := by
  after_results_simp
  rfl

theorem g_bias : after hostOps4 W (Proc.devRef .tc main_v73)
    = shapeCast S1x128 (Cert.Spec.convB1 (W (Proc.devRef .tc main_arg5))) shapeCasts_S128_S1x128 := by
  after_results_simp
  rfl

/-! ## Before the decoder -/

theorem h_bias : after hostOps5 W (Proc.devRef .tc main_v75) = shapeCast S1x64 (W (Proc.devRef .tc main_arg7)) shapeCasts_S64_S1x64 := by
  after_results_simp
  rfl

/-! ## What each stretch leaves alone -/

/-- What `hostOps0` does not write. -/
theorem k_a_arg0 : after hostOps0 W (Proc.devRef .tc main_arg0) = W (Proc.devRef .tc main_arg0) := by after_results_simp
theorem k_a_arg2 : after hostOps0 W (Proc.devRef .tc main_arg2) = W (Proc.devRef .tc main_arg2) := by after_results_simp
theorem k_a_arg3 : after hostOps0 W (Proc.devRef .tc main_arg3) = W (Proc.devRef .tc main_arg3) := by after_results_simp
theorem k_a_arg4 : after hostOps0 W (Proc.devRef .tc main_arg4) = W (Proc.devRef .tc main_arg4) := by after_results_simp
theorem k_a_arg5 : after hostOps0 W (Proc.devRef .tc main_arg5) = W (Proc.devRef .tc main_arg5) := by after_results_simp
theorem k_a_arg6 : after hostOps0 W (Proc.devRef .tc main_arg6) = W (Proc.devRef .tc main_arg6) := by after_results_simp
theorem k_a_arg7 : after hostOps0 W (Proc.devRef .tc main_arg7) = W (Proc.devRef .tc main_arg7) := by after_results_simp

/-- What `hostOps0_1` does not write. -/
theorem k_b_v3 : after hostOps0_1 W (Proc.devRef .tc main_v3) = W (Proc.devRef .tc main_v3) := by after_results_simp
theorem k_b_v6 : after hostOps0_1 W (Proc.devRef .tc main_v6) = W (Proc.devRef .tc main_v6) := by after_results_simp
theorem k_b_arg0 : after hostOps0_1 W (Proc.devRef .tc main_arg0) = W (Proc.devRef .tc main_arg0) := by after_results_simp
theorem k_b_arg2 : after hostOps0_1 W (Proc.devRef .tc main_arg2) = W (Proc.devRef .tc main_arg2) := by after_results_simp
theorem k_b_arg3 : after hostOps0_1 W (Proc.devRef .tc main_arg3) = W (Proc.devRef .tc main_arg3) := by after_results_simp
theorem k_b_arg4 : after hostOps0_1 W (Proc.devRef .tc main_arg4) = W (Proc.devRef .tc main_arg4) := by after_results_simp
theorem k_b_arg5 : after hostOps0_1 W (Proc.devRef .tc main_arg5) = W (Proc.devRef .tc main_arg5) := by after_results_simp
theorem k_b_arg6 : after hostOps0_1 W (Proc.devRef .tc main_arg6) = W (Proc.devRef .tc main_arg6) := by after_results_simp
theorem k_b_arg7 : after hostOps0_1 W (Proc.devRef .tc main_arg7) = W (Proc.devRef .tc main_arg7) := by after_results_simp

/-- What `hostOps0_2` does not write. -/
theorem k_c_v3 : after hostOps0_2 W (Proc.devRef .tc main_v3) = W (Proc.devRef .tc main_v3) := by after_results_simp
theorem k_c_v6 : after hostOps0_2 W (Proc.devRef .tc main_v6) = W (Proc.devRef .tc main_v6) := by after_results_simp
theorem k_c_arg0 : after hostOps0_2 W (Proc.devRef .tc main_arg0) = W (Proc.devRef .tc main_arg0) := by after_results_simp
theorem k_c_arg2 : after hostOps0_2 W (Proc.devRef .tc main_arg2) = W (Proc.devRef .tc main_arg2) := by after_results_simp
theorem k_c_arg4 : after hostOps0_2 W (Proc.devRef .tc main_arg4) = W (Proc.devRef .tc main_arg4) := by after_results_simp
theorem k_c_arg5 : after hostOps0_2 W (Proc.devRef .tc main_arg5) = W (Proc.devRef .tc main_arg5) := by after_results_simp
theorem k_c_arg6 : after hostOps0_2 W (Proc.devRef .tc main_arg6) = W (Proc.devRef .tc main_arg6) := by after_results_simp
theorem k_c_arg7 : after hostOps0_2 W (Proc.devRef .tc main_arg7) = W (Proc.devRef .tc main_arg7) := by after_results_simp

/-- What `hostOps1` does not write. -/
theorem k_d_v31 : after hostOps1 W (Proc.devRef .tc main_v31) = W (Proc.devRef .tc main_v31) := by after_results_simp
theorem k_d_v3 : after hostOps1 W (Proc.devRef .tc main_v3) = W (Proc.devRef .tc main_v3) := by after_results_simp
theorem k_d_v6 : after hostOps1 W (Proc.devRef .tc main_v6) = W (Proc.devRef .tc main_v6) := by after_results_simp
theorem k_d_v29 : after hostOps1 W (Proc.devRef .tc main_v29) = W (Proc.devRef .tc main_v29) := by after_results_simp
theorem k_d_arg4 : after hostOps1 W (Proc.devRef .tc main_arg4) = W (Proc.devRef .tc main_arg4) := by after_results_simp
theorem k_d_arg5 : after hostOps1 W (Proc.devRef .tc main_arg5) = W (Proc.devRef .tc main_arg5) := by after_results_simp
theorem k_d_arg6 : after hostOps1 W (Proc.devRef .tc main_arg6) = W (Proc.devRef .tc main_arg6) := by after_results_simp
theorem k_d_arg7 : after hostOps1 W (Proc.devRef .tc main_arg7) = W (Proc.devRef .tc main_arg7) := by after_results_simp

/-- What `hostOps2` does not write. -/
theorem k_e_v32 : after hostOps2 W (Proc.devRef .tc main_v32) = W (Proc.devRef .tc main_v32) := by after_results_simp
theorem k_e_v3 : after hostOps2 W (Proc.devRef .tc main_v3) = W (Proc.devRef .tc main_v3) := by after_results_simp
theorem k_e_v6 : after hostOps2 W (Proc.devRef .tc main_v6) = W (Proc.devRef .tc main_v6) := by after_results_simp
theorem k_e_v29 : after hostOps2 W (Proc.devRef .tc main_v29) = W (Proc.devRef .tc main_v29) := by after_results_simp
theorem k_e_arg4 : after hostOps2 W (Proc.devRef .tc main_arg4) = W (Proc.devRef .tc main_arg4) := by after_results_simp
theorem k_e_arg5 : after hostOps2 W (Proc.devRef .tc main_arg5) = W (Proc.devRef .tc main_arg5) := by after_results_simp
theorem k_e_arg6 : after hostOps2 W (Proc.devRef .tc main_arg6) = W (Proc.devRef .tc main_arg6) := by after_results_simp
theorem k_e_arg7 : after hostOps2 W (Proc.devRef .tc main_arg7) = W (Proc.devRef .tc main_arg7) := by after_results_simp

/-- What `hostOps3` does not write. -/
theorem k_f_v53 : after hostOps3 W (Proc.devRef .tc main_v53) = W (Proc.devRef .tc main_v53) := by after_results_simp
theorem k_f_v3 : after hostOps3 W (Proc.devRef .tc main_v3) = W (Proc.devRef .tc main_v3) := by after_results_simp
theorem k_f_v6 : after hostOps3 W (Proc.devRef .tc main_v6) = W (Proc.devRef .tc main_v6) := by after_results_simp
theorem k_f_v29 : after hostOps3 W (Proc.devRef .tc main_v29) = W (Proc.devRef .tc main_v29) := by after_results_simp
theorem k_f_arg5 : after hostOps3 W (Proc.devRef .tc main_arg5) = W (Proc.devRef .tc main_arg5) := by after_results_simp
theorem k_f_arg6 : after hostOps3 W (Proc.devRef .tc main_arg6) = W (Proc.devRef .tc main_arg6) := by after_results_simp
theorem k_f_arg7 : after hostOps3 W (Proc.devRef .tc main_arg7) = W (Proc.devRef .tc main_arg7) := by after_results_simp

/-- What `hostOps4` does not write. -/
theorem k_g_arg6 : after hostOps4 W (Proc.devRef .tc main_arg6) = W (Proc.devRef .tc main_arg6) := by after_results_simp
theorem k_g_arg7 : after hostOps4 W (Proc.devRef .tc main_arg7) = W (Proc.devRef .tc main_arg7) := by after_results_simp

/-- What `hostOps5` does not write. -/
theorem k_h_v74 : after hostOps5 W (Proc.devRef .tc main_v74) = W (Proc.devRef .tc main_v74) := by after_results_simp
theorem k_h_arg6 : after hostOps5 W (Proc.devRef .tc main_arg6) = W (Proc.devRef .tc main_arg6) := by after_results_simp

end Cert.KernelIdeal.Host

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«178511_j28037546508929_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«178511_j28037546508929_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.KReg0.lean ====
/-
  The encoder's kernel, tiled over ten blocks of 5000 rows, leaves in its output array the network's first stage:
  `leaky (x · W + b)` of the arrays it finds in its three input windows, the bias read as one row.

  Block `t` of the output holds, at `(p, q)`, the rectified `Σ_k x (5000 t + p, k) · W (k, q) + b (0, q)`: the block of `x`
  staged at point `t` is rows `5000 t … 5000 t + 4999`, the weight and the bias row are staged whole at every point, and
  the product on the matrix unit from the zero accumulator is the plain sum over `k` on the extended reals (the
  operands' narrowing to half precision is the identity there). The ten blocks tile the 50000 rows.
-/
import proofs.«178511_j28037546508929_1_alg».proof.Proof.Gen.KernelIdeal.Frame
import proofs.«178511_j28037546508929_1_alg».proof.Proof.SpecFacts
import proofs.«178511_j28037546508929_1_alg».proof.Proof.LibAffineRows
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- Entry `(p, q)` of the body's stored value, when row `p` of the staged block of `x` is row `P` of the array. -/
theorem enc_entry (A : FVec Ideal S50000x256 .f32) (Wt : FVec Ideal S256x128 .f32) (b2 : FVec Ideal S1x128 .f32)
    (x0 : Vec Ideal S5000x256 .f32) (P : Fin 50000) (p : Fin 5000) (q : Fin 128)
    (hx : ∀ k : Fin 256, (x0 (ix2 p k) : EReal) = A (ix2 P k)) :
    k0_pay1 x0 Wt b2 (ix2 p q) = Cert.Spec.leaky (Cert.Spec.encLin A Wt b2) (ix2 P q) := by
  unfold k0_pay1
  refine Cert.Spec.leaky_entry _ _ _ _ ?_
  unfold Cert.Spec.encLin
  refine Cert.Lib.AffineRows.layer_row (M := 50000) (K := 256) (N := 128) (B := 5000) none none A Wt
    (truncf .bf16 x0 bitsLt_bf16_f32) (truncf .bf16 Wt bitsLt_bf16_f32) _ _ P p q (fun k => hx k) (fun k => rfl) ?_
  rw [shapeCast_self, Cert.Spec.rows128_apply]
  exact broadcastTo_1b_ab_apply _ _ p q

/-- The block indices of the four windows at a grid point: the rows move with the point, the weight and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight's window stages the whole weight at every point. -/
theorem blk0_1 (c : Dev nD) (t : Fin cfg0.N) : iblk0 V c 1 t = V c main_arg2 := by
  obtain ⟨-, -, e0, e1, -⟩ := idx0 t
  funext x
  show V c main_arg2 (((cfg0.win 1).blk t).view.emb x) = V c main_arg2 x
  refine congrArg _ (funext fun a => Fin.ext ?_)
  match a with
  | ⟨0, _⟩ => show win0_1.index t (0 : Fin 2) * 256 + 1 * (x 0).val = (x 0).val; omega
  | ⟨1, _⟩ => show win0_1.index t (1 : Fin 2) * 128 + 1 * (x 1).val = (x 1).val; omega

/-- The bias row's window stages the whole row at every point. -/
theorem blk0_2 (c : Dev nD) (t : Fin cfg0.N) : iblk0 V c 2 t = V c main_v30 := by
  obtain ⟨-, -, -, -, e0, e1, -⟩ := idx0 t
  funext x
  show V c main_v30 (((cfg0.win 2).blk t).view.emb x) = V c main_v30 x
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- The features' window stages rows `5000 t … 5000 t + 4999`. -/
theorem blk0_0 (c : Dev nD) (t : Fin cfg0.N) (p : Fin 5000) (k : Fin 256) (P : Fin 50000) (hP : P.val = t.val * 5000 + p.val) :
    (iblk0 V c 0 t : Vec Ideal S5000x256 .f32) (ix2 p k) = (V c main_arg0 : S50000x256.Idx → EReal) (ix2 P k) := by
  obtain ⟨e0, e1, -⟩ := idx0 t
  show V c main_arg0 (((cfg0.win 0).blk t).view.emb (ix2 p k)) = V c main_arg0 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 256 + 1 * k.val = k.val; omega

/-- What point `t` writes back is block `t` of the first stage of the arrays the region finds. -/
theorem flushed0 (c : Dev nD) (t : Fin cfg0.N) :
    (dat0 V c).flushed 3 t = ((cfg0.win 3).blk t).view.read (Elt Ideal)
      (Cert.Spec.leaky (Cert.Spec.encLin (V c main_arg0) (V c main_arg2) (V c main_v30))) := by
  show (cfg0.win 3).cut (grid0.coords t) ((dat0 V c).after 3 t) = _
  rw [after0_3]
  unfold out0_3
  rw [View.canon_unit_zero zeros2]
  simp only [View.ld_unit_zero (S := S5000x256) zeros2, View.ld_unit_zero (S := S256x128) zeros2,
    View.ld_unit_zero (S := S1x128) zeros2]
  rw [blk0_1, blk0_2]
  obtain ⟨-, -, -, -, -, -, e0, e1⟩ := idx0 t
  funext y
  have hy0 : (y 0).val < 5000 := (y 0).isLt
  have hy1 : (y 1).val < 128 := (y 1).isLt
  have hlt : t.val * 5000 + (y 0).val < 50000 := by
    have := t.isLt; have h10 : cfg0.N = 10 := N_0
    omega
  have hemb : ((cfg0.win 3).blk t).view.emb y = ix2 (⟨t.val * 5000 + (y 0).val, hlt⟩ : Fin 50000) (⟨(y 1).val, hy1⟩ : Fin 128) := by
    funext a; apply Fin.ext
    match a with
    | ⟨0, _⟩ => show win0_3.index t (0 : Fin 2) * 5000 + 1 * (y 0).val = t.val * 5000 + (y 0).val; omega
    | ⟨1, _⟩ => show win0_3.index t (1 : Fin 2) * 128 + 1 * (y 1).val = (y 1).val; omega
  show k0_pay1 (iblk0 V c 0 t) (V c main_arg2) (V c main_v30) y = Cert.Spec.leaky _ (((cfg0.win 3).blk t).view.emb y)
  have hyy : y = ix2 (⟨(y 0).val, hy0⟩ : Fin 5000) (⟨(y 1).val, hy1⟩ : Fin 128) := eq_ix2 y
  refine (congrArg (k0_pay1 (iblk0 V c 0 t) (V c main_arg2) (V c main_v30)) hyy).trans ?_
  rw [hemb]
  exact enc_entry (V c main_arg0) (V c main_arg2) (V c main_v30) (iblk0 V c 0 t) _ _ _ fun k => blk0_0 V c t _ k _ rfl

/-- An index of the output array is in point `t`'s block iff its row is among the block's 5000. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Every row is in the block of the point `row / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0]
  obtain ⟨-, -, -, -, -, -, e0, e1⟩ := idx0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-- The output array after the region: the first stage of the arrays the region finds in its input windows. -/
theorem final0 (c : Dev nD) :
    (dat0 V c).arrAt 3 cfg0.N = Cert.Spec.leaky (Cert.Spec.encLin (V c main_arg0) (V c main_arg2) (V c main_v30)) :=
  (dat0 V c).arrAt_eq_of_cover 3 _ (fun t _ => flushed0 V c t) cover0

end Cert.KernelIdeal.Regions

end
-- ==== Proof.KReg1.lean ====
/-
  The first layer's dense kernel, tiled over ten blocks of 5000 rows, leaves in its output array `h · W + b` of the arrays
  it finds in its three input windows, the bias read as one row.

  Block `t` of the output holds, at `(p, q)`, `Σ_k h (5000 t + p, k) · W (k, q) + b (0, q)`: the block of `h` staged at point
  `t` is rows `5000 t … 5000 t + 4999`, the weight and the bias row are staged whole at every point, and the product on the
  matrix unit from the zero accumulator is the plain sum over `k` on the extended reals (the operands' narrowing to half
  precision is the identity there). The ten blocks tile the 50000 rows.
-/
import proofs.«178511_j28037546508929_1_alg».proof.Proof.Gen.KernelIdeal.Frame
import proofs.«178511_j28037546508929_1_alg».proof.Proof.SpecFacts
import proofs.«178511_j28037546508929_1_alg».proof.Proof.LibAffineRows
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_1 : (![0, 0] : Fin 2 → Nat) = fun _ => 0 := funext fun a => by fin_cases a <;> rfl

/-- Entry `(p, q)` of the body's stored value, when row `p` of the staged block of `h` is row `P` of the array. -/
theorem lin_entry1 (A : FVec Ideal S50000x128 .f32) (Wt : FVec Ideal S128x128 .f32) (b2 : FVec Ideal S1x128 .f32)
    (x0 : Vec Ideal S5000x128 .f32) (P : Fin 50000) (p : Fin 5000) (q : Fin 128)
    (hx : ∀ k : Fin 128, (x0 (ix2 p k) : EReal) = A (ix2 P k)) :
    k1_pay1 x0 Wt b2 (ix2 p q) = Cert.Spec.linRow A Wt b2 (ix2 P q) := by
  unfold k1_pay1 Cert.Spec.linRow Cert.Spec.lin128
  refine Cert.Lib.AffineRows.layer_row (M := 50000) (K := 128) (N := 128) (B := 5000) none none A Wt
    (truncf .bf16 (shapeCast S5000x128 x0 _) _) (truncf .bf16 (shapeCast S128x128 Wt _) _) _ _ P p q
    (fun k => ?_) (fun k => ?_) ?_
  · show shapeCast S5000x128 x0 _ (ix2 p k) = _
    rw [shapeCast_self]; exact hx k
  · show shapeCast S128x128 Wt _ (ix2 k q) = _
    rw [shapeCast_self]
  · rw [shapeCast_self, Cert.Spec.rows128_apply]
    exact broadcastTo_1b_ab_apply _ _ p q

/-- The block indices of the four windows at a grid point: the rows move with the point, the weight and the bias stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight's window stages the whole weight at every point. -/
theorem blk1_1 (c : Dev nD) (t : Fin cfg1.N) : iblk1 V c 1 t = V c main_v34 := by
  obtain ⟨-, -, e0, e1, -⟩ := idx1 t
  funext x
  show V c main_v34 (((cfg1.win 1).blk t).view.emb x) = V c main_v34 x
  refine congrArg _ (funext fun a => Fin.ext ?_)
  match a with
  | ⟨0, _⟩ => show win1_1.index t (0 : Fin 2) * 128 + 1 * (x 0).val = (x 0).val; omega
  | ⟨1, _⟩ => show win1_1.index t (1 : Fin 2) * 128 + 1 * (x 1).val = (x 1).val; omega

/-- The bias row's window stages the whole row at every point. -/
theorem blk1_2 (c : Dev nD) (t : Fin cfg1.N) : iblk1 V c 2 t = V c main_v35 := by
  obtain ⟨-, -, -, -, e0, e1, -⟩ := idx1 t
  funext x
  show V c main_v35 (((cfg1.win 2).blk t).view.emb x) = V c main_v35 x
  refine congrArg _ (funext fun a => Fin.ext ?_)
  match a with
  | ⟨0, _⟩ => show win1_2.index t (0 : Fin 2) * 1 + 1 * (x 0).val = (x 0).val; omega
  | ⟨1, _⟩ => show win1_2.index t (1 : Fin 2) * 128 + 1 * (x 1).val = (x 1).val; omega

/-- The features' window stages rows `5000 t … 5000 t + 4999`. -/
theorem blk1_0 (c : Dev nD) (t : Fin cfg1.N) (p : Fin 5000) (k : Fin 128) (P : Fin 50000) (hP : P.val = t.val * 5000 + p.val) :
    (iblk1 V c 0 t : Vec Ideal S5000x128 .f32) (ix2 p k) = (V c main_v31 : S50000x128.Idx → EReal) (ix2 P k) := by
  obtain ⟨e0, e1, -⟩ := idx1 t
  show V c main_v31 (((cfg1.win 0).blk t).view.emb (ix2 p k)) = V c main_v31 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- What point `t` writes back is block `t` of `h · W + b` of the arrays the region finds. -/
theorem flushed1 (c : Dev nD) (t : Fin cfg1.N) :
    (dat1 V c).flushed 3 t = ((cfg1.win 3).blk t).view.read (Elt Ideal)
      (Cert.Spec.linRow (V c main_v31) (V c main_v34) (V c main_v35)) := by
  show (cfg1.win 3).cut (grid1.coords t) ((dat1 V c).after 3 t) = _
  rw [after1_3]
  unfold out1_3
  rw [View.canon_unit_zero zeros2_1]
  simp only [View.ld_unit_zero (S := S5000x128) zeros2_1, View.ld_unit_zero (S := S128x128) zeros2_1,
    View.ld_unit_zero (S := S1x128) zeros2_1]
  rw [blk1_1, blk1_2]
  obtain ⟨-, -, -, -, -, -, e0, e1⟩ := idx1 t
  funext y
  have hy0 : (y 0).val < 5000 := (y 0).isLt
  have hy1 : (y 1).val < 128 := (y 1).isLt
  have hlt : t.val * 5000 + (y 0).val < 50000 := by
    have := t.isLt; have h10 : cfg1.N = 10 := N_1
    omega
  have hemb : ((cfg1.win 3).blk t).view.emb y = ix2 (⟨t.val * 5000 + (y 0).val, hlt⟩ : Fin 50000) (⟨(y 1).val, hy1⟩ : Fin 128) := by
    funext a; apply Fin.ext
    match a with
    | ⟨0, _⟩ => show win1_3.index t (0 : Fin 2) * 5000 + 1 * (y 0).val = t.val * 5000 + (y 0).val; omega
    | ⟨1, _⟩ => show win1_3.index t (1 : Fin 2) * 128 + 1 * (y 1).val = (y 1).val; omega
  show k1_pay1 (iblk1 V c 0 t) (V c main_v34) (V c main_v35) y = Cert.Spec.linRow _ _ _ (((cfg1.win 3).blk t).view.emb y)
  have hyy : y = ix2 (⟨(y 0).val, hy0⟩ : Fin 5000) (⟨(y 1).val, hy1⟩ : Fin 128) := eq_ix2 y
  refine (congrArg (k1_pay1 (iblk1 V c 0 t) (V c main_v34) (V c main_v35)) hyy).trans ?_
  rw [hemb]
  exact lin_entry1 (V c main_v31) (V c main_v34) (V c main_v35) (iblk1 V c 0 t) _ _ _ fun k => blk1_0 V c t _ k _ rfl

/-- An index of the output array is in point `t`'s block iff its row is among the block's 5000. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- Every row is in the block of the point `row / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_blk1]
  obtain ⟨-, -, -, -, -, -, e0, e1⟩ := idx1 ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e0]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e1]; omega

/-- The output array after the region: `h · W + b` of the arrays the region finds in its input windows. -/
theorem final1 (c : Dev nD) :
    (dat1 V c).arrAt 3 cfg1.N = Cert.Spec.linRow (V c main_v31) (V c main_v34) (V c main_v35) :=
  (dat1 V c).arrAt_eq_of_cover 3 _ (fun t _ => flushed1 V c t) cover1

end Cert.KernelIdeal.Regions

end
-- ==== Proof.KReg2.lean ====
/-
  The first layer's pointwise kernel, tiled over ten blocks of 5000 rows, leaves in its output array `leaky (a + b)` of the
  aggregate and the bias row it finds in its two input windows.

  Block `t` of the output holds, at `(p, q)`, the rectified `a (5000 t + p, q) + b (0, q)`: the block of `a` staged at point
  `t` is rows `5000 t … 5000 t + 4999`, the bias row is staged whole at every point, and the rectifier acts entry by entry.
  The ten blocks tile the 50000 rows.
-/
import proofs.«178511_j28037546508929_1_alg».proof.Proof.Gen.KernelIdeal.Frame
import proofs.«178511_j28037546508929_1_alg».proof.Proof.SpecFacts
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_2 : (![0, 0] : Fin 2 → Nat) = fun _ => 0 := funext fun a => by fin_cases a <;> rfl

/-- Entry `(p, q)` of the body's stored value, when entry `(p, q)` of the staged block is entry `(P, q)` of the array. -/
theorem act_entry2 (A : FVec Ideal S50000x128 .f32) (b2 : FVec Ideal S1x128 .f32)
    (x0 : Vec Ideal S5000x128 .f32) (P : Fin 50000) (p : Fin 5000) (q : Fin 128)
    (hx : (x0 (ix2 p q) : EReal) = A (ix2 P q)) :
    k2_pay1 x0 b2 (ix2 p q) = Cert.Spec.biasAct A b2 (ix2 P q) := by
  unfold k2_pay1 Cert.Spec.biasAct
  refine Cert.Spec.leaky_entry _ _ _ _ ?_
  show FloatOps.addf (shapeCast S5000x128 x0 _ (ix2 p q)) (broadcastTo S5000x128 (shapeCast S1x128 b2 _) _ (ix2 p q))
    = FloatOps.addf (A (ix2 P q)) (Cert.Spec.rows128 b2 (ix2 P q))
  rw [shapeCast_self, shapeCast_self, Cert.Spec.rows128_apply, broadcastTo_1b_ab_apply, hx]

/-- The block indices of the three windows at a grid point: the rows move with the point, the bias stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The bias row's window stages the whole row at every point. -/
theorem blk2_1 (c : Dev nD) (t : Fin cfg2.N) : iblk2 V c 1 t = V c main_v52 := by
  obtain ⟨-, -, e0, e1, -⟩ := idx2 t
  funext x
  show V c main_v52 (((cfg2.win 1).blk t).view.emb x) = V c main_v52 x
  refine congrArg _ (funext fun a => Fin.ext ?_)
  match a with
  | ⟨0, _⟩ => show win2_1.index t (0 : Fin 2) * 1 + 1 * (x 0).val = (x 0).val; omega
  | ⟨1, _⟩ => show win2_1.index t (1 : Fin 2) * 128 + 1 * (x 1).val = (x 1).val; omega

/-- The aggregate's window stages rows `5000 t … 5000 t + 4999`. -/
theorem blk2_0 (c : Dev nD) (t : Fin cfg2.N) (p : Fin 5000) (k : Fin 128) (P : Fin 50000) (hP : P.val = t.val * 5000 + p.val) :
    (iblk2 V c 0 t : Vec Ideal S5000x128 .f32) (ix2 p k) = (V c main_v49 : S50000x128.Idx → EReal) (ix2 P k) := by
  obtain ⟨e0, e1, -⟩ := idx2 t
  show V c main_v49 (((cfg2.win 0).blk t).view.emb (ix2 p k)) = V c main_v49 (ix2 P k)
  refine congrArg _ (funext fun a => Fin.ext ?_)
  match a with
  | ⟨0, _⟩ => show win2_0.index t (0 : Fin 2) * 5000 + 1 * p.val = P.val; omega
  | ⟨1, _⟩ => show win2_0.index t (1 : Fin 2) * 128 + 1 * k.val = k.val; omega

/-- What point `t` writes back is block `t` of `leaky (a + b)` of the arrays the region finds. -/
theorem flushed2 (c : Dev nD) (t : Fin cfg2.N) :
    (dat2 V c).flushed 2 t = ((cfg2.win 2).blk t).view.read (Elt Ideal)
      (Cert.Spec.biasAct (V c main_v49) (V c main_v52)) := by
  show (cfg2.win 2).cut (grid2.coords t) ((dat2 V c).after 2 t) = _
  rw [after2_2]
  unfold out2_2
  rw [View.canon_unit_zero zeros2_2]
  simp only [View.ld_unit_zero (S := S5000x128) zeros2_2, View.ld_unit_zero (S := S1x128) zeros2_2]
  rw [blk2_1]
  obtain ⟨-, -, -, -, e0, e1⟩ := idx2 t
  funext y
  have hy0 : (y 0).val < 5000 := (y 0).isLt
  have hy1 : (y 1).val < 128 := (y 1).isLt
  have hlt : t.val * 5000 + (y 0).val < 50000 := by
    have := t.isLt; have h10 : cfg2.N = 10 := N_2
    omega
  have hemb : ((cfg2.win 2).blk t).view.emb y = ix2 (⟨t.val * 5000 + (y 0).val, hlt⟩ : Fin 50000) (⟨(y 1).val, hy1⟩ : Fin 128) := by
    funext a; apply Fin.ext
    match a with
    | ⟨0, _⟩ => show win2_2.index t (0 : Fin 2) * 5000 + 1 * (y 0).val = t.val * 5000 + (y 0).val; omega
    | ⟨1, _⟩ => show win2_2.index t (1 : Fin 2) * 128 + 1 * (y 1).val = (y 1).val; omega
  show k2_pay1 (iblk2 V c 0 t) (V c main_v52) y = Cert.Spec.biasAct _ _ (((cfg2.win 2).blk t).view.emb y)
  have hyy : y = ix2 (⟨(y 0).val, hy0⟩ : Fin 5000) (⟨(y 1).val, hy1⟩ : Fin 128) := eq_ix2 y
  refine (congrArg (k2_pay1 (iblk2 V c 0 t) (V c main_v52)) hyy).trans ?_
  rw [hemb]
  exact act_entry2 (V c main_v49) (V c main_v52) (iblk2 V c 0 t) _ _ _ (blk2_0 V c t _ _ _ rfl)

/-- An index of the output array is in point `t`'s block iff its row is among the block's 5000. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Every row is in the block of the point `row / 5000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  rw [mem_blk2]
  obtain ⟨-, -, -, -, e0, e1⟩ := idx2 ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e0]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e1]; omega

/-- The output array after the region: `leaky (a + b)` of the arrays the region finds in its input windows. -/
theorem final2 (c : Dev nD) :
    (dat2 V c).arrAt 2 cfg2.N = Cert.Spec.biasAct (V c main_v49) (V c main_v52) :=
  (dat2 V c).arrAt_eq_of_cover 2 _ (fun t _ => flushed2 V c t) cover2

end Cert.KernelIdeal.Regions

end
-- ==== Proof.KReg3.lean ====
/-
  The second layer's dense kernel, tiled over ten blocks of 5000 rows, leaves in its output array `h · W + b` of the
  arrays it finds in its three input windows, the bias read as one row.

  Block `t` of the output holds, at `(p, q)`, `Σ_k h (5000 t + p, k) · W (k, q) + b (0, q)`: the block of `h` staged at point
  `t` is rows `5000 t … 5000 t + 4999`, the weight and the bias row are staged whole at every point, and the product on the
  matrix unit from the zero accumulator is the plain sum over `k` on the extended reals (the operands' narrowing to half
  precision is the identity there). The ten blocks tile the 50000 rows.
-/
import proofs.«178511_j28037546508929_1_alg».proof.Proof.Gen.KernelIdeal.Frame
import proofs.«178511_j28037546508929_1_alg».proof.Proof.SpecFacts
import proofs.«178511_j28037546508929_1_alg».proof.Proof.LibAffineRows
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_3 : (![0, 0] : Fin 2 → Nat) = fun _ => 0 := funext fun a => by fin_cases a <;> rfl

/-- Entry `(p, q)` of the body's stored value, when row `p` of the staged block of `h` is row `P` of the array. -/
theorem lin_entry3 (A : FVec Ideal S50000x128 .f32) (Wt : FVec Ideal S128x128 .f32) (b2 : FVec Ideal S1x128 .f32)
    (x0 : Vec Ideal S5000x128 .f32) (P : Fin 50000) (p : Fin 5000) (q : Fin 128)
    (hx : ∀ k : Fin 128, (x0 (ix2 p k) : EReal) = A (ix2 P k)) :
    k3_pay1 x0 Wt b2 (ix2 p q) = Cert.Spec.linRow A Wt b2 (ix2 P q) := by
  unfold k3_pay1 Cert.Spec.linRow Cert.Spec.lin128
  refine Cert.Lib.AffineRows.layer_row (M := 50000) (K := 128) (N := 128) (B := 5000) none none A Wt
    (truncf .bf16 (shapeCast S5000x128 x0 _) _) (truncf .bf16 (shapeCast S128x128 Wt _) _) _ _ P p q
    (fun k => ?_) (fun k => ?_) ?_
  · show shapeCast S5000x128 x0 _ (ix2 p k) = _
    rw [shapeCast_self]; exact hx k
  · show shapeCast S128x128 Wt _ (ix2 k q) = _
    rw [shapeCast_self]
  · rw [shapeCast_self, Cert.Spec.rows128_apply]
    exact broadcastTo_1b_ab_apply _ _ p q

/-- The block indices of the four windows at a grid point: the rows move with the point, the weight and the bias stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The weight's window stages the whole weight at every point. -/
theorem blk3_1 (c : Dev nD) (t : Fin cfg3.N) : iblk3 V c 1 t = V c main_v55 := by
  obtain ⟨-, -, e0, e1, -⟩ := idx3 t
  funext x
  show V c main_v55 (((cfg3.win 1).blk t).view.emb x) = V c main_v55 x
  refine congrArg _ (funext fun a => Fin.ext ?_)
  match a with
  | ⟨0, _⟩ => show win3_1.index t (0 : Fin 2) * 128 + 1 * (x 0).val = (x 0).val; omega
  | ⟨1, _⟩ => show win3_1.index t (1 : Fin 2) * 128 + 1 * (x 1).val = (x 1).val; omega

/-- The bias row's window stages the whole row at every point. -/
theorem blk3_2 (c : Dev nD) (t : Fin cfg3.N) : iblk3 V c 2 t = V c main_v56 := by
  obtain ⟨-, -, -, -, e0, e1, -⟩ := idx3 t
  funext x
  show V c main_v56 (((cfg3.win 2).blk t).view.emb x) = V c main_v56 x
  refine congrArg _ (funext fun a => Fin.ext ?_)
  match a with
  | ⟨0, _⟩ => show win3_2.index t (0 : Fin 2) * 1 + 1 * (x 0).val = (x 0).val; omega
  | ⟨1, _⟩ => show win3_2.index t (1 : Fin 2) * 128 + 1 * (x 1).val = (x 1).val; omega

/-- The features' window stages rows `5000 t … 5000 t + 4999`. -/
theorem blk3_0 (c : Dev nD) (t : Fin cfg3.N) (p : Fin 5000) (k : Fin 128) (P : Fin 50000) (hP : P.val = t.val * 5000 + p.val) :
    (iblk3 V c 0 t : Vec Ideal S5000x128 .f32) (ix2 p k) = (V c main_v53 : S50000x128.Idx → EReal) (ix2 P k) := by
  obtain ⟨e0, e1, -⟩ := idx3 t
  show V c main_v53 (((cfg3.win 0).blk t).view.emb (ix2 p k)) = V c main_v53 (ix2 P k)
  refine congrArg _ (funext fun a => Fin.ext ?_)
  match a with
  | ⟨0, _⟩ => show win3_0.index t (0 : Fin 2) * 5000 + 1 * p.val = P.val; omega
  | ⟨1, _⟩ => show win3_0.index t (1 : Fin 2) * 128 + 1 * k.val = k.val; omega

/-- What point `t` writes back is block `t` of `h · W + b` of the arrays the region finds. -/
theorem flushed3 (c : Dev nD) (t : Fin cfg3.N) :
    (dat3 V c).flushed 3 t = ((cfg3.win 3).blk t).view.read (Elt Ideal)
      (Cert.Spec.linRow (V c main_v53) (V c main_v55) (V c main_v56)) := by
  show (cfg3.win 3).cut (grid3.coords t) ((dat3 V c).after 3 t) = _
  rw [after3_3]
  unfold out3_3
  rw [View.canon_unit_zero zeros2_3]
  simp only [View.ld_unit_zero (S := S5000x128) zeros2_3, View.ld_unit_zero (S := S128x128) zeros2_3,
    View.ld_unit_zero (S := S1x128) zeros2_3]
  rw [blk3_1, blk3_2]
  obtain ⟨-, -, -, -, -, -, e0, e1⟩ := idx3 t
  funext y
  have hy0 : (y 0).val < 5000 := (y 0).isLt
  have hy1 : (y 1).val < 128 := (y 1).isLt
  have hlt : t.val * 5000 + (y 0).val < 50000 := by
    have := t.isLt; have h10 : cfg3.N = 10 := N_3
    omega
  have hemb : ((cfg3.win 3).blk t).view.emb y = ix2 (⟨t.val * 5000 + (y 0).val, hlt⟩ : Fin 50000) (⟨(y 1).val, hy1⟩ : Fin 128) := by
    funext a; apply Fin.ext
    match a with
    | ⟨0, _⟩ => show win3_3.index t (0 : Fin 2) * 5000 + 1 * (y 0).val = t.val * 5000 + (y 0).val; omega
    | ⟨1, _⟩ => show win3_3.index t (1 : Fin 2) * 128 + 1 * (y 1).val = (y 1).val; omega
  show k3_pay1 (iblk3 V c 0 t) (V c main_v55) (V c main_v56) y = Cert.Spec.linRow _ _ _ (((cfg3.win 3).blk t).view.emb y)
  have hyy : y = ix2 (⟨(y 0).val, hy0⟩ : Fin 5000) (⟨(y 1).val, hy1⟩ : Fin 128) := eq_ix2 y
  refine (congrArg (k3_pay1 (iblk3 V c 0 t) (V c main_v55) (V c main_v56)) hyy).trans ?_
  rw [hemb]
  exact lin_entry3 (V c main_v53) (V c main_v55) (V c main_v56) (iblk3 V c 0 t) _ _ _ fun k => blk3_0 V c t _ k _ rfl

/-- An index of the output array is in point `t`'s block iff its row is among the block's 5000. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v57).slice (win3_3.rect t)).set ↔ _
  rw [View.set_slice_whole, Rect.mem_set_unit]
  exact Iff.rfl

/-- Every row is in the block of the point `row / 5000`. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_3 _, ?_⟩
  rw [mem_blk3]
  obtain ⟨-, -, -, -, -, -, e0, e1⟩ := idx3 ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e0]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e1]; omega

/-- The output array after the region: `h · W + b` of the arrays the region finds in its input windows. -/
theorem final3 (c : Dev nD) :
    (dat3 V c).arrAt 3 cfg3.N = Cert.Spec.linRow (V c main_v53) (V c main_v55) (V c main_v56) :=
  (dat3 V c).arrAt_eq_of_cover 3 _ (fun t _ => flushed3 V c t) cover3

end Cert.KernelIdeal.Regions

end
-- ==== Proof.KReg4.lean ====
/-
  The second layer's pointwise kernel, tiled over ten blocks of 5000 rows, leaves in its output array `leaky (a + b)` of the
  aggregate and the bias row it finds in its two input windows.

  Block `t` of the output holds, at `(p, q)`, the rectified `a (5000 t + p, q) + b (0, q)`: the block of `a` staged at point
  `t` is rows `5000 t … 5000 t + 4999`, the bias row is staged whole at every point, and the rectifier acts entry by entry.
  The ten blocks tile the 50000 rows.
-/
import proofs.«178511_j28037546508929_1_alg».proof.Proof.Gen.KernelIdeal.Frame
import proofs.«178511_j28037546508929_1_alg».proof.Proof.SpecFacts
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_4 : (![0, 0] : Fin 2 → Nat) = fun _ => 0 := funext fun a => by fin_cases a <;> rfl

/-- Entry `(p, q)` of the body's stored value, when entry `(p, q)` of the staged block is entry `(P, q)` of the array. -/
theorem act_entry4 (A : FVec Ideal S50000x128 .f32) (b2 : FVec Ideal S1x128 .f32)
    (x0 : Vec Ideal S5000x128 .f32) (P : Fin 50000) (p : Fin 5000) (q : Fin 128)
    (hx : (x0 (ix2 p q) : EReal) = A (ix2 P q)) :
    k4_pay1 x0 b2 (ix2 p q) = Cert.Spec.biasAct A b2 (ix2 P q) := by
  unfold k4_pay1 Cert.Spec.biasAct
  refine Cert.Spec.leaky_entry _ _ _ _ ?_
  show FloatOps.addf (shapeCast S5000x128 x0 _ (ix2 p q)) (broadcastTo S5000x128 (shapeCast S1x128 b2 _) _ (ix2 p q))
    = FloatOps.addf (A (ix2 P q)) (Cert.Spec.rows128 b2 (ix2 P q))
  rw [shapeCast_self, shapeCast_self, Cert.Spec.rows128_apply, broadcastTo_1b_ab_apply, hx]

/-- The block indices of the three windows at a grid point: the rows move with the point, the bias stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The bias row's window stages the whole row at every point. -/
theorem blk4_1 (c : Dev nD) (t : Fin cfg4.N) : iblk4 V c 1 t = V c main_v73 := by
  obtain ⟨-, -, e0, e1, -⟩ := idx4 t
  funext x
  show V c main_v73 (((cfg4.win 1).blk t).view.emb x) = V c main_v73 x
  refine congrArg _ (funext fun a => Fin.ext ?_)
  match a with
  | ⟨0, _⟩ => show win4_1.index t (0 : Fin 2) * 1 + 1 * (x 0).val = (x 0).val; omega
  | ⟨1, _⟩ => show win4_1.index t (1 : Fin 2) * 128 + 1 * (x 1).val = (x 1).val; omega

/-- The aggregate's window stages rows `5000 t … 5000 t + 4999`. -/
theorem blk4_0 (c : Dev nD) (t : Fin cfg4.N) (p : Fin 5000) (k : Fin 128) (P : Fin 50000) (hP : P.val = t.val * 5000 + p.val) :
    (iblk4 V c 0 t : Vec Ideal S5000x128 .f32) (ix2 p k) = (V c main_v70 : S50000x128.Idx → EReal) (ix2 P k) := by
  obtain ⟨e0, e1, -⟩ := idx4 t
  show V c main_v70 (((cfg4.win 0).blk t).view.emb (ix2 p k)) = V c main_v70 (ix2 P k)
  refine congrArg _ (funext fun a => Fin.ext ?_)
  match a with
  | ⟨0, _⟩ => show win4_0.index t (0 : Fin 2) * 5000 + 1 * p.val = P.val; omega
  | ⟨1, _⟩ => show win4_0.index t (1 : Fin 2) * 128 + 1 * k.val = k.val; omega

/-- What point `t` writes back is block `t` of `leaky (a + b)` of the arrays the region finds. -/
theorem flushed4 (c : Dev nD) (t : Fin cfg4.N) :
    (dat4 V c).flushed 2 t = ((cfg4.win 2).blk t).view.read (Elt Ideal)
      (Cert.Spec.biasAct (V c main_v70) (V c main_v73)) := by
  show (cfg4.win 2).cut (grid4.coords t) ((dat4 V c).after 2 t) = _
  rw [after4_2]
  unfold out4_2
  rw [View.canon_unit_zero zeros2_4]
  simp only [View.ld_unit_zero (S := S5000x128) zeros2_4, View.ld_unit_zero (S := S1x128) zeros2_4]
  rw [blk4_1]
  obtain ⟨-, -, -, -, e0, e1⟩ := idx4 t
  funext y
  have hy0 : (y 0).val < 5000 := (y 0).isLt
  have hy1 : (y 1).val < 128 := (y 1).isLt
  have hlt : t.val * 5000 + (y 0).val < 50000 := by
    have := t.isLt; have h10 : cfg4.N = 10 := N_4
    omega
  have hemb : ((cfg4.win 2).blk t).view.emb y = ix2 (⟨t.val * 5000 + (y 0).val, hlt⟩ : Fin 50000) (⟨(y 1).val, hy1⟩ : Fin 128) := by
    funext a; apply Fin.ext
    match a with
    | ⟨0, _⟩ => show win4_2.index t (0 : Fin 2) * 5000 + 1 * (y 0).val = t.val * 5000 + (y 0).val; omega
    | ⟨1, _⟩ => show win4_2.index t (1 : Fin 2) * 128 + 1 * (y 1).val = (y 1).val; omega
  show k4_pay1 (iblk4 V c 0 t) (V c main_v73) y = Cert.Spec.biasAct _ _ (((cfg4.win 2).blk t).view.emb y)
  have hyy : y = ix2 (⟨(y 0).val, hy0⟩ : Fin 5000) (⟨(y 1).val, hy1⟩ : Fin 128) := eq_ix2 y
  refine (congrArg (k4_pay1 (iblk4 V c 0 t) (V c main_v73)) hyy).trans ?_
  rw [hemb]
  exact act_entry4 (V c main_v70) (V c main_v73) (iblk4 V c 0 t) _ _ _ (blk4_0 V c t _ _ _ rfl)

/-- An index of the output array is in point `t`'s block iff its row is among the block's 5000. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v74).slice (win4_2.rect t)).set ↔ _
  rw [View.set_slice_whole, Rect.mem_set_unit]
  exact Iff.rfl

/-- Every row is in the block of the point `row / 5000`. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  rw [mem_blk4]
  obtain ⟨-, -, -, -, e0, e1⟩ := idx4 ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e0]; show (i 0).val / 5000 * 5000 ≤ (i 0).val ∧ (i 0).val < (i 0).val / 5000 * 5000 + 5000; omega
  | ⟨1, _⟩ => show win4_2.index _ (1 : Fin 2) * 128 ≤ (i 1).val ∧ (i 1).val < win4_2.index _ (1 : Fin 2) * 128 + 128; rw [e1]; omega

/-- The output array after the region: `leaky (a + b)` of the arrays the region finds in its input windows. -/
theorem final4 (c : Dev nD) :
    (dat4 V c).arrAt 2 cfg4.N = Cert.Spec.biasAct (V c main_v70) (V c main_v73) :=
  (dat4 V c).arrAt_eq_of_cover 2 _ (fun t _ => flushed4 V c t) cover4

end Cert.KernelIdeal.Regions

end
-- ==== Proof.KReg5.lean ====
/-
  The decoder's kernel, tiled over ten blocks of 5000 rows, leaves in its output array `h · W + b` of the arrays it finds
  in its three input windows, the bias read as one row of 64 entries.

  Block `t` of the output holds, at `(p, q)`, `Σ_k h (5000 t + p, k) · W (k, q) + b (0, q)`: the block of `h` staged at point
  `t` is rows `5000 t … 5000 t + 4999`, the weight and the bias row are staged whole at every point, and the product on the
  matrix unit from the zero accumulator is the plain sum over `k` on the extended reals (the operands' narrowing to half
  precision is the identity there). The ten blocks tile the 50000 rows.
-/
import proofs.«178511_j28037546508929_1_alg».proof.Proof.Gen.KernelIdeal.Frame
import proofs.«178511_j28037546508929_1_alg».proof.Proof.SpecFacts
import proofs.«178511_j28037546508929_1_alg».proof.Proof.LibAffineRows
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_5 : (![0, 0] : Fin 2 → Nat) = fun _ => 0 := funext fun a => by fin_cases a <;> rfl

/-- Entry `(p, q)` of the body's stored value, when row `p` of the staged block of `h` is row `P` of the array. -/
theorem lin_entry5 (A : FVec Ideal S50000x128 .f32) (Wt : FVec Ideal S128x64 .f32) (b2 : FVec Ideal S1x64 .f32)
    (x0 : Vec Ideal S5000x128 .f32) (P : Fin 50000) (p : Fin 5000) (q : Fin 64)
    (hx : ∀ k : Fin 128, (x0 (ix2 p k) : EReal) = A (ix2 P k)) :
    k5_pay1 x0 Wt b2 (ix2 p q) = Cert.Spec.decLin A Wt b2 (ix2 P q) := by
  unfold k5_pay1 Cert.Spec.decLin
  refine Cert.Lib.AffineRows.layer_row (M := 50000) (K := 128) (N := 64) (B := 5000) none none A Wt
    (truncf .bf16 (shapeCast S5000x128 x0 _) _) (truncf .bf16 Wt _) _ _ P p q
    (fun k => ?_) (fun k => ?_) ?_
  · show shapeCast S5000x128 x0 _ (ix2 p k) = _
    rw [shapeCast_self]; exact hx k
  · rfl
  · rw [shapeCast_self, Cert.Spec.rows64_apply]
    exact broadcastTo_1b_ab_apply _ _ p q

/-- The block indices of the four windows at a grid point: the rows move with the point, the weight and the bias stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The weight's window stages the whole weight at every point. -/
theorem blk5_1 (c : Dev nD) (t : Fin cfg5.N) : iblk5 V c 1 t = V c main_arg6 := by
  obtain ⟨-, -, e0, e1, -⟩ := idx5 t
  funext x
  show V c main_arg6 (((cfg5.win 1).blk t).view.emb x) = V c main_arg6 x
  refine congrArg _ (funext fun a => Fin.ext ?_)
  match a with
  | ⟨0, _⟩ => show win5_1.index t (0 : Fin 2) * 128 + 1 * (x 0).val = (x 0).val; omega
  | ⟨1, _⟩ => show win5_1.index t (1 : Fin 2) * 64 + 1 * (x 1).val = (x 1).val; omega

/-- The bias row's window stages the whole row at every point. -/
theorem blk5_2 (c : Dev nD) (t : Fin cfg5.N) : iblk5 V c 2 t = V c main_v75 := by
  obtain ⟨-, -, -, -, e0, e1, -⟩ := idx5 t
  funext x
  show V c main_v75 (((cfg5.win 2).blk t).view.emb x) = V c main_v75 x
  refine congrArg _ (funext fun a => Fin.ext ?_)
  match a with
  | ⟨0, _⟩ => show win5_2.index t (0 : Fin 2) * 1 + 1 * (x 0).val = (x 0).val; omega
  | ⟨1, _⟩ => show win5_2.index t (1 : Fin 2) * 64 + 1 * (x 1).val = (x 1).val; omega

/-- The features' window stages rows `5000 t … 5000 t + 4999`. -/
theorem blk5_0 (c : Dev nD) (t : Fin cfg5.N) (p : Fin 5000) (k : Fin 128) (P : Fin 50000) (hP : P.val = t.val * 5000 + p.val) :
    (iblk5 V c 0 t : Vec Ideal S5000x128 .f32) (ix2 p k) = (V c main_v74 : S50000x128.Idx → EReal) (ix2 P k) := by
  obtain ⟨e0, e1, -⟩ := idx5 t
  show V c main_v74 (((cfg5.win 0).blk t).view.emb (ix2 p k)) = V c main_v74 (ix2 P k)
  refine congrArg _ (funext fun a => Fin.ext ?_)
  match a with
  | ⟨0, _⟩ => show win5_0.index t (0 : Fin 2) * 5000 + 1 * p.val = P.val; omega
  | ⟨1, _⟩ => show win5_0.index t (1 : Fin 2) * 128 + 1 * k.val = k.val; omega

/-- What point `t` writes back is block `t` of `h · W + b` of the arrays the region finds. -/
theorem flushed5 (c : Dev nD) (t : Fin cfg5.N) :
    (dat5 V c).flushed 3 t = ((cfg5.win 3).blk t).view.read (Elt Ideal)
      (Cert.Spec.decLin (V c main_v74) (V c main_arg6) (V c main_v75)) := by
  show (cfg5.win 3).cut (grid5.coords t) ((dat5 V c).after 3 t) = _
  rw [after5_3]
  unfold out5_3
  rw [View.canon_unit_zero zeros2_5]
  simp only [View.ld_unit_zero (S := S5000x128) zeros2_5, View.ld_unit_zero (S := S128x64) zeros2_5,
    View.ld_unit_zero (S := S1x64) zeros2_5]
  rw [blk5_1, blk5_2]
  obtain ⟨-, -, -, -, -, -, e0, e1⟩ := idx5 t
  funext y
  have hy0 : (y 0).val < 5000 := (y 0).isLt
  have hy1 : (y 1).val < 64 := (y 1).isLt
  have hlt : t.val * 5000 + (y 0).val < 50000 := by
    have := t.isLt; have h10 : cfg5.N = 10 := N_5
    omega
  have hemb : ((cfg5.win 3).blk t).view.emb y = ix2 (⟨t.val * 5000 + (y 0).val, hlt⟩ : Fin 50000) (⟨(y 1).val, hy1⟩ : Fin 64) := by
    funext a; apply Fin.ext
    match a with
    | ⟨0, _⟩ => show win5_3.index t (0 : Fin 2) * 5000 + 1 * (y 0).val = t.val * 5000 + (y 0).val; omega
    | ⟨1, _⟩ => show win5_3.index t (1 : Fin 2) * 64 + 1 * (y 1).val = (y 1).val; omega
  show k5_pay1 (iblk5 V c 0 t) (V c main_arg6) (V c main_v75) y = Cert.Spec.decLin _ _ _ (((cfg5.win 3).blk t).view.emb y)
  have hyy : y = ix2 (⟨(y 0).val, hy0⟩ : Fin 5000) (⟨(y 1).val, hy1⟩ : Fin 64) := eq_ix2 y
  refine (congrArg (k5_pay1 (iblk5 V c 0 t) (V c main_arg6) (V c main_v75)) hyy).trans ?_
  rw [hemb]
  exact lin_entry5 (V c main_v74) (V c main_arg6) (V c main_v75) (iblk5 V c 0 t) _ _ _ fun k => blk5_0 V c t _ k _ rfl

/-- An index of the output array is in point `t`'s block iff its row is among the block's 5000. -/
theorem mem_blk5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v76).slice (win5_3.rect t)).set ↔ _
  rw [View.set_slice_whole, Rect.mem_set_unit]
  exact Iff.rfl

/-- Every row is in the block of the point `row / 5000`. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  refine ⟨⟨(i 0).val / 5000, by rw [hN]; omega⟩, flush5_3 _, ?_⟩
  rw [mem_blk5]
  obtain ⟨-, -, -, -, -, -, e0, e1⟩ := idx5 ⟨(i 0).val / 5000, by rw [hN]; omega⟩
  intro a
  match a with
  | ⟨0, _⟩ => show win5_3.index _ (0 : Fin 2) * 5000 ≤ (i 0).val ∧ (i 0).val < win5_3.index _ (0 : Fin 2) * 5000 + 5000; rw [e0]; show (i 0).val / 5000 * 5000 ≤ (i 0).val ∧ (i 0).val < (i 0).val / 5000 * 5000 + 5000; omega
  | ⟨1, _⟩ => show win5_3.index _ (1 : Fin 2) * 64 ≤ (i 1).val ∧ (i 1).val < win5_3.index _ (1 : Fin 2) * 64 + 64; rw [e1]; omega

/-- The output array after the region: `h · W + b` of the arrays the region finds in its input windows. -/
theorem final5 (c : Dev nD) :
    (dat5 V c).arrAt 3 cfg5.N = Cert.Spec.decLin (V c main_v74) (V c main_arg6) (V c main_v75) :=
  (dat5 V c).arrAt_eq_of_cover 3 _ (fun t _ => flushed5 V c t) cover5

end Cert.KernelIdeal.Regions

end
-- ==== Proof.KChain.lean ====
/-
  The value the idealized kernel program leaves in its result buffer, boundary by boundary.

  The program's fourteen segments are walked in order. After the first three stretches of host operations the buffers
  hold the endpoint lists, the per-edge normalisation and the encoder's bias as a row; the encoder's kernel leaves the first
  stage `leaky (x · W + b)`; each layer is a dense kernel (its added bias row is zero, and `a + 0 = a`), the host's gather,
  scale and scatter-add, and a pointwise kernel adding the layer's bias and rectifying; the decoder's kernel leaves the
  result. Between its definition and its use every value is carried across the segments that do not write its buffer.
-/
import proofs.«178511_j28037546508929_1_alg».proof.Proof.Gen.KernelIdeal.Frame
import proofs.«178511_j28037546508929_1_alg».proof.Proof.KHost
import proofs.«178511_j28037546508929_1_alg».proof.Proof.KReg0
import proofs.«178511_j28037546508929_1_alg».proof.Proof.KReg1
import proofs.«178511_j28037546508929_1_alg».proof.Proof.KReg2
import proofs.«178511_j28037546508929_1_alg».proof.Proof.KReg3
import proofs.«178511_j28037546508929_1_alg».proof.Proof.KReg4
import proofs.«178511_j28037546508929_1_alg».proof.Proof.KReg5

noncomputable section

namespace Cert.KernelIdeal.Chain

open Cert.KernelIdeal Cert.KernelIdeal.Gen Idealize.ShloMosaic Idealize.ShloMosaic.TcCoe Idealize.SL.Sem
open Idealize.ShloMosaic.StableHlo
open Cert.KernelIdeal.Host Cert.KernelIdeal.Regions

variable (m : (ℓ : Loc nD τ sig) → Buf (Elt Ideal) ℓ) (ρ : Dev nD → PrngReg) (c : Dev nD)

/-- One layer with its bias cast to a row instead of put on a row's axis: the two layouts are one array. -/
theorem layer_cast (e : Cert.Spec.IArr Cert.ReferenceIdeal.S2x800000) (h : Cert.Spec.FArr Cert.ReferenceIdeal.S50000x128)
    (w : Cert.Spec.FArr Cert.ReferenceIdeal.S128x128) (b : Cert.Spec.FArr Cert.ReferenceIdeal.S128)
    (hc : Cert.ReferenceIdeal.S128.ShapeCasts Cert.ReferenceIdeal.S1x128) :
    Cert.Spec.layer e h w b
      = Cert.Spec.biasAct (Cert.Spec.agg e (Cert.Spec.lin128 h w)) (shapeCast Cert.ReferenceIdeal.S1x128 b hc) := by
  unfold Cert.Spec.layer
  rw [Cert.Spec.row128_eq_cast b hc]

/-! ## The launch memory -/

theorem w0_arg0 : W0 m ρ c (Proc.devRef .tc main_arg0) = (m ((c : Thread nD τ).loc main_arg0)) := rfl
theorem w0_arg2 : W0 m ρ c (Proc.devRef .tc main_arg2) = (m ((c : Thread nD τ).loc main_arg2)) := rfl
theorem w0_arg3 : W0 m ρ c (Proc.devRef .tc main_arg3) = (m ((c : Thread nD τ).loc main_arg3)) := rfl
theorem w0_arg4 : W0 m ρ c (Proc.devRef .tc main_arg4) = (m ((c : Thread nD τ).loc main_arg4)) := rfl
theorem w0_arg5 : W0 m ρ c (Proc.devRef .tc main_arg5) = (m ((c : Thread nD τ).loc main_arg5)) := rfl
theorem w0_arg6 : W0 m ρ c (Proc.devRef .tc main_arg6) = (m ((c : Thread nD τ).loc main_arg6)) := rfl
theorem w0_arg7 : W0 m ρ c (Proc.devRef .tc main_arg7) = (m ((c : Thread nD τ).loc main_arg7)) := rfl

/-! ## After the first stretch: the endpoint lists, the degrees' sign and inverse square roots -/

theorem w1_v3 : W1 m ρ c (Proc.devRef .tc main_v3) = Cert.Spec.src (m ((c : Thread nD τ).loc main_arg1)) := a_src (W0 m ρ c)
theorem w1_v6 : W1 m ρ c (Proc.devRef .tc main_v6) = Cert.Spec.dst (m ((c : Thread nD τ).loc main_arg1)) := a_dst (W0 m ρ c)
theorem w1_v12 : W1 m ρ c (Proc.devRef .tc main_v12) = Cert.Spec.degPos (m ((c : Thread nD τ).loc main_arg1)) := a_pos (W0 m ρ c)
theorem w1_v13 : W1 m ρ c (Proc.devRef .tc main_v13) = Cert.Spec.degRsqrt (m ((c : Thread nD τ).loc main_arg1)) := a_rsqrt (W0 m ρ c)
theorem w1_cst_2 : W1 m ρ c (Proc.devRef .tc main_cst_2) = Cert.Spec.zero0 := a_zero (W0 m ρ c)
theorem w1_arg0 : W1 m ρ c (Proc.devRef .tc main_arg0) = (m ((c : Thread nD τ).loc main_arg0)) := (k_a_arg0 (W0 m ρ c)).trans (w0_arg0 m ρ c)
theorem w1_arg2 : W1 m ρ c (Proc.devRef .tc main_arg2) = (m ((c : Thread nD τ).loc main_arg2)) := (k_a_arg2 (W0 m ρ c)).trans (w0_arg2 m ρ c)
theorem w1_arg3 : W1 m ρ c (Proc.devRef .tc main_arg3) = (m ((c : Thread nD τ).loc main_arg3)) := (k_a_arg3 (W0 m ρ c)).trans (w0_arg3 m ρ c)
theorem w1_arg4 : W1 m ρ c (Proc.devRef .tc main_arg4) = (m ((c : Thread nD τ).loc main_arg4)) := (k_a_arg4 (W0 m ρ c)).trans (w0_arg4 m ρ c)
theorem w1_arg5 : W1 m ρ c (Proc.devRef .tc main_arg5) = (m ((c : Thread nD τ).loc main_arg5)) := (k_a_arg5 (W0 m ρ c)).trans (w0_arg5 m ρ c)
theorem w1_arg6 : W1 m ρ c (Proc.devRef .tc main_arg6) = (m ((c : Thread nD τ).loc main_arg6)) := (k_a_arg6 (W0 m ρ c)).trans (w0_arg6 m ρ c)
theorem w1_arg7 : W1 m ρ c (Proc.devRef .tc main_arg7) = (m ((c : Thread nD τ).loc main_arg7)) := (k_a_arg7 (W0 m ρ c)).trans (w0_arg7 m ρ c)

/-! ## After the second: the inverse square roots where the degree is positive -/

theorem w2_v14 : W2 m ρ c (Proc.devRef .tc main_v14) = Cert.Spec.dinv (m ((c : Thread nD τ).loc main_arg1)) :=
  (b_dinv (W1 m ρ c)).trans (by rw [w1_v12, w1_v13, w1_cst_2]; exact (Cert.Spec.dinv_eq _).symm)
theorem w2_v3 : W2 m ρ c (Proc.devRef .tc main_v3) = Cert.Spec.src (m ((c : Thread nD τ).loc main_arg1)) := (k_b_v3 (W1 m ρ c)).trans (w1_v3 m ρ c)
theorem w2_v6 : W2 m ρ c (Proc.devRef .tc main_v6) = Cert.Spec.dst (m ((c : Thread nD τ).loc main_arg1)) := (k_b_v6 (W1 m ρ c)).trans (w1_v6 m ρ c)
theorem w2_arg0 : W2 m ρ c (Proc.devRef .tc main_arg0) = (m ((c : Thread nD τ).loc main_arg0)) := (k_b_arg0 (W1 m ρ c)).trans (w1_arg0 m ρ c)
theorem w2_arg2 : W2 m ρ c (Proc.devRef .tc main_arg2) = (m ((c : Thread nD τ).loc main_arg2)) := (k_b_arg2 (W1 m ρ c)).trans (w1_arg2 m ρ c)
theorem w2_arg3 : W2 m ρ c (Proc.devRef .tc main_arg3) = (m ((c : Thread nD τ).loc main_arg3)) := (k_b_arg3 (W1 m ρ c)).trans (w1_arg3 m ρ c)
theorem w2_arg4 : W2 m ρ c (Proc.devRef .tc main_arg4) = (m ((c : Thread nD τ).loc main_arg4)) := (k_b_arg4 (W1 m ρ c)).trans (w1_arg4 m ρ c)
theorem w2_arg5 : W2 m ρ c (Proc.devRef .tc main_arg5) = (m ((c : Thread nD τ).loc main_arg5)) := (k_b_arg5 (W1 m ρ c)).trans (w1_arg5 m ρ c)
theorem w2_arg6 : W2 m ρ c (Proc.devRef .tc main_arg6) = (m ((c : Thread nD τ).loc main_arg6)) := (k_b_arg6 (W1 m ρ c)).trans (w1_arg6 m ρ c)
theorem w2_arg7 : W2 m ρ c (Proc.devRef .tc main_arg7) = (m ((c : Thread nD τ).loc main_arg7)) := (k_b_arg7 (W1 m ρ c)).trans (w1_arg7 m ρ c)

/-! ## After the third: the normalisation and the encoder's bias as a row -/

theorem w3_v29 : W3 m ρ c (Proc.devRef .tc main_v29) = Cert.Spec.norm (m ((c : Thread nD τ).loc main_arg1)) :=
  (c_norm (W2 m ρ c)).trans (by rw [w2_v14, w2_v3, w2_v6]; exact (Cert.Spec.norm_eq _).symm)
theorem w3_v30 : W3 m ρ c (Proc.devRef .tc main_v30) = shapeCast S1x128 (m ((c : Thread nD τ).loc main_arg3)) shapeCasts_S128_S1x128 :=
  (c_bias (W2 m ρ c)).trans (by rw [w2_arg3])
theorem w3_v3 : W3 m ρ c (Proc.devRef .tc main_v3) = Cert.Spec.src (m ((c : Thread nD τ).loc main_arg1)) := (k_c_v3 (W2 m ρ c)).trans (w2_v3 m ρ c)
theorem w3_v6 : W3 m ρ c (Proc.devRef .tc main_v6) = Cert.Spec.dst (m ((c : Thread nD τ).loc main_arg1)) := (k_c_v6 (W2 m ρ c)).trans (w2_v6 m ρ c)
theorem w3_arg0 : W3 m ρ c (Proc.devRef .tc main_arg0) = (m ((c : Thread nD τ).loc main_arg0)) := (k_c_arg0 (W2 m ρ c)).trans (w2_arg0 m ρ c)
theorem w3_arg2 : W3 m ρ c (Proc.devRef .tc main_arg2) = (m ((c : Thread nD τ).loc main_arg2)) := (k_c_arg2 (W2 m ρ c)).trans (w2_arg2 m ρ c)
theorem w3_arg4 : W3 m ρ c (Proc.devRef .tc main_arg4) = (m ((c : Thread nD τ).loc main_arg4)) := (k_c_arg4 (W2 m ρ c)).trans (w2_arg4 m ρ c)
theorem w3_arg5 : W3 m ρ c (Proc.devRef .tc main_arg5) = (m ((c : Thread nD τ).loc main_arg5)) := (k_c_arg5 (W2 m ρ c)).trans (w2_arg5 m ρ c)
theorem w3_arg6 : W3 m ρ c (Proc.devRef .tc main_arg6) = (m ((c : Thread nD τ).loc main_arg6)) := (k_c_arg6 (W2 m ρ c)).trans (w2_arg6 m ρ c)
theorem w3_arg7 : W3 m ρ c (Proc.devRef .tc main_arg7) = (m ((c : Thread nD τ).loc main_arg7)) := (k_c_arg7 (W2 m ρ c)).trans (w2_arg7 m ρ c)

/-! ## The encoder's kernel -/

theorem w4_v31 : W4 m ρ c (Proc.devRef .tc main_v31) = Cert.Spec.enc (m ((c : Thread nD τ).loc main_arg0)) (m ((c : Thread nD τ).loc main_arg2)) (m ((c : Thread nD τ).loc main_arg3)) :=
  (W4_arr m ρ c 3).trans ((final0 (V3 m ρ) c).trans (by
    show Cert.Spec.leaky (Cert.Spec.encLin (W3 m ρ c (Proc.devRef .tc main_arg0)) (W3 m ρ c (Proc.devRef .tc main_arg2)) (W3 m ρ c (Proc.devRef .tc main_v30))) = _
    rw [w3_arg0, w3_arg2, w3_v30]
    unfold Cert.Spec.enc
    rw [Cert.Spec.row128_eq_cast]))
theorem w4_v3 : W4 m ρ c (Proc.devRef .tc main_v3) = Cert.Spec.src (m ((c : Thread nD τ).loc main_arg1)) := (W4_of_ne m ρ c main_v3 (by decide)).trans (w3_v3 m ρ c)
theorem w4_v6 : W4 m ρ c (Proc.devRef .tc main_v6) = Cert.Spec.dst (m ((c : Thread nD τ).loc main_arg1)) := (W4_of_ne m ρ c main_v6 (by decide)).trans (w3_v6 m ρ c)
theorem w4_v29 : W4 m ρ c (Proc.devRef .tc main_v29) = Cert.Spec.norm (m ((c : Thread nD τ).loc main_arg1)) := (W4_of_ne m ρ c main_v29 (by decide)).trans (w3_v29 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)

/-! ## Before the first layer's dense kernel: its weight and a zero row -/

theorem w5_v31 : W5 m ρ c (Proc.devRef .tc main_v31) = Cert.Spec.enc (m ((c : Thread nD τ).loc main_arg0)) (m ((c : Thread nD τ).loc main_arg2)) (m ((c : Thread nD τ).loc main_arg3)) := (k_d_v31 (W4 m ρ c)).trans (w4_v31 m ρ c)
theorem w5_v34 : W5 m ρ c (Proc.devRef .tc main_v34) = Cert.Spec.convW0 (m ((c : Thread nD τ).loc main_arg4)) := (d_weight (W4 m ρ c)).trans (by rw [w4_arg4])
theorem w5_v35 : W5 m ρ c (Proc.devRef .tc main_v35) = Cert.Spec.zeroRow shapeCasts_S128_S1x128 := d_zeroRow (W4 m ρ c)
theorem w5_v32 : W5 m ρ c (Proc.devRef .tc main_v32) = Cert.Spec.zeros128 := d_zeros (W4 m ρ c)
theorem w5_v3 : W5 m ρ c (Proc.devRef .tc main_v3) = Cert.Spec.src (m ((c : Thread nD τ).loc main_arg1)) := (k_d_v3 (W4 m ρ c)).trans (w4_v3 m ρ c)
theorem w5_v6 : W5 m ρ c (Proc.devRef .tc main_v6) = Cert.Spec.dst (m ((c : Thread nD τ).loc main_arg1)) := (k_d_v6 (W4 m ρ c)).trans (w4_v6 m ρ c)
theorem w5_v29 : W5 m ρ c (Proc.devRef .tc main_v29) = Cert.Spec.norm (m ((c : Thread nD τ).loc main_arg1)) := (k_d_v29 (W4 m ρ c)).trans (w4_v29 m ρ c)
theorem w5_arg4 : W5 m ρ c (Proc.devRef .tc main_arg4) = (m ((c : Thread nD τ).loc main_arg4)) := (k_d_arg4 (W4 m ρ c)).trans (w4_arg4 m ρ c)
theorem w5_arg5 : W5 m ρ c (Proc.devRef .tc main_arg5) = (m ((c : Thread nD τ).loc main_arg5)) := (k_d_arg5 (W4 m ρ c)).trans (w4_arg5 m ρ c)
theorem w5_arg6 : W5 m ρ c (Proc.devRef .tc main_arg6) = (m ((c : Thread nD τ).loc main_arg6)) := (k_d_arg6 (W4 m ρ c)).trans (w4_arg6 m ρ c)
theorem w5_arg7 : W5 m ρ c (Proc.devRef .tc main_arg7) = (m ((c : Thread nD τ).loc main_arg7)) := (k_d_arg7 (W4 m ρ c)).trans (w4_arg7 m ρ c)

/-! ## The first layer's dense kernel -/

theorem w6_v36 : W6 m ρ c (Proc.devRef .tc main_v36) = Cert.Spec.lin128 (Cert.Spec.enc (m ((c : Thread nD τ).loc main_arg0)) (m ((c : Thread nD τ).loc main_arg2)) (m ((c : Thread nD τ).loc main_arg3))) (Cert.Spec.convW0 (m ((c : Thread nD τ).loc main_arg4))) :=
  (W6_arr m ρ c 3).trans ((final1 (V5 m ρ) c).trans (by
    show Cert.Spec.linRow (W5 m ρ c (Proc.devRef .tc main_v31)) (W5 m ρ c (Proc.devRef .tc main_v34)) (W5 m ρ c (Proc.devRef .tc main_v35)) = _
    rw [w5_v31, w5_v34, w5_v35]
    exact Cert.Spec.linRow_zero _ _ _))
theorem w6_v32 : W6 m ρ c (Proc.devRef .tc main_v32) = Cert.Spec.zeros128 := (W6_of_ne m ρ c main_v32 (by decide)).trans (w5_v32 m ρ c)
theorem w6_v3 : W6 m ρ c (Proc.devRef .tc main_v3) = Cert.Spec.src (m ((c : Thread nD τ).loc main_arg1)) := (W6_of_ne m ρ c main_v3 (by decide)).trans (w5_v3 m ρ c)
theorem w6_v6 : W6 m ρ c (Proc.devRef .tc main_v6) = Cert.Spec.dst (m ((c : Thread nD τ).loc main_arg1)) := (W6_of_ne m ρ c main_v6 (by decide)).trans (w5_v6 m ρ c)
theorem w6_v29 : W6 m ρ c (Proc.devRef .tc main_v29) = Cert.Spec.norm (m ((c : Thread nD τ).loc main_arg1)) := (W6_of_ne m ρ c main_v29 (by decide)).trans (w5_v29 m ρ c)
theorem w6_arg4 : W6 m ρ c (Proc.devRef .tc main_arg4) = (m ((c : Thread nD τ).loc main_arg4)) := (W6_of_ne m ρ c main_arg4 (by decide)).trans (w5_arg4 m ρ c)
theorem w6_arg5 : W6 m ρ c (Proc.devRef .tc main_arg5) = (m ((c : Thread nD τ).loc main_arg5)) := (W6_of_ne m ρ c main_arg5 (by decide)).trans (w5_arg5 m ρ c)
theorem w6_arg6 : W6 m ρ c (Proc.devRef .tc main_arg6) = (m ((c : Thread nD τ).loc main_arg6)) := (W6_of_ne m ρ c main_arg6 (by decide)).trans (w5_arg6 m ρ c)
theorem w6_arg7 : W6 m ρ c (Proc.devRef .tc main_arg7) = (m ((c : Thread nD τ).loc main_arg7)) := (W6_of_ne m ρ c main_arg7 (by decide)).trans (w5_arg7 m ρ c)

/-! ## Between the first layer's kernels: the aggregate and the bias row -/

theorem w7_v49 : W7 m ρ c (Proc.devRef .tc main_v49) = Cert.Spec.agg (m ((c : Thread nD τ).loc main_arg1)) (Cert.Spec.lin128 (Cert.Spec.enc (m ((c : Thread nD τ).loc main_arg0)) (m ((c : Thread nD τ).loc main_arg2)) (m ((c : Thread nD τ).loc main_arg3))) (Cert.Spec.convW0 (m ((c : Thread nD τ).loc main_arg4)))) :=
  (e_agg (W6 m ρ c)).trans (by rw [w6_v3, w6_v6, w6_v29, w6_v36]; exact (Cert.Spec.agg_eq _ _).symm)
theorem w7_v52 : W7 m ρ c (Proc.devRef .tc main_v52) = shapeCast S1x128 (Cert.Spec.convB0 (m ((c : Thread nD τ).loc main_arg5))) shapeCasts_S128_S1x128 :=
  (e_bias (W6 m ρ c)).trans (by rw [w6_arg5])
theorem w7_v32 : W7 m ρ c (Proc.devRef .tc main_v32) = Cert.Spec.zeros128 := (k_e_v32 (W6 m ρ c)).trans (w6_v32 m ρ c)
theorem w7_v3 : W7 m ρ c (Proc.devRef .tc main_v3) = Cert.Spec.src (m ((c : Thread nD τ).loc main_arg1)) := (k_e_v3 (W6 m ρ c)).trans (w6_v3 m ρ c)
theorem w7_v6 : W7 m ρ c (Proc.devRef .tc main_v6) = Cert.Spec.dst (m ((c : Thread nD τ).loc main_arg1)) := (k_e_v6 (W6 m ρ c)).trans (w6_v6 m ρ c)
theorem w7_v29 : W7 m ρ c (Proc.devRef .tc main_v29) = Cert.Spec.norm (m ((c : Thread nD τ).loc main_arg1)) := (k_e_v29 (W6 m ρ c)).trans (w6_v29 m ρ c)
theorem w7_arg4 : W7 m ρ c (Proc.devRef .tc main_arg4) = (m ((c : Thread nD τ).loc main_arg4)) := (k_e_arg4 (W6 m ρ c)).trans (w6_arg4 m ρ c)
theorem w7_arg5 : W7 m ρ c (Proc.devRef .tc main_arg5) = (m ((c : Thread nD τ).loc main_arg5)) := (k_e_arg5 (W6 m ρ c)).trans (w6_arg5 m ρ c)
theorem w7_arg6 : W7 m ρ c (Proc.devRef .tc main_arg6) = (m ((c : Thread nD τ).loc main_arg6)) := (k_e_arg6 (W6 m ρ c)).trans (w6_arg6 m ρ c)
theorem w7_arg7 : W7 m ρ c (Proc.devRef .tc main_arg7) = (m ((c : Thread nD τ).loc main_arg7)) := (k_e_arg7 (W6 m ρ c)).trans (w6_arg7 m ρ c)

/-! ## The first layer's pointwise kernel -/

theorem w8_v53 : W8 m ρ c (Proc.devRef .tc main_v53) = Cert.Spec.layer (m ((c : Thread nD τ).loc main_arg1)) (Cert.Spec.enc (m ((c : Thread nD τ).loc main_arg0)) (m ((c : Thread nD τ).loc main_arg2)) (m ((c : Thread nD τ).loc main_arg3))) (Cert.Spec.convW0 (m ((c : Thread nD τ).loc main_arg4))) (Cert.Spec.convB0 (m ((c : Thread nD τ).loc main_arg5))) :=
  (W8_arr m ρ c 2).trans ((final2 (V7 m ρ) c).trans (by
    show Cert.Spec.biasAct (W7 m ρ c (Proc.devRef .tc main_v49)) (W7 m ρ c (Proc.devRef .tc main_v52)) = _
    rw [w7_v49, w7_v52]
    exact (layer_cast _ _ _ _ _).symm))
theorem w8_v32 : W8 m ρ c (Proc.devRef .tc main_v32) = Cert.Spec.zeros128 := (W8_of_ne m ρ c main_v32 (by decide)).trans (w7_v32 m ρ c)
theorem w8_v3 : W8 m ρ c (Proc.devRef .tc main_v3) = Cert.Spec.src (m ((c : Thread nD τ).loc main_arg1)) := (W8_of_ne m ρ c main_v3 (by decide)).trans (w7_v3 m ρ c)
theorem w8_v6 : W8 m ρ c (Proc.devRef .tc main_v6) = Cert.Spec.dst (m ((c : Thread nD τ).loc main_arg1)) := (W8_of_ne m ρ c main_v6 (by decide)).trans (w7_v6 m ρ c)
theorem w8_v29 : W8 m ρ c (Proc.devRef .tc main_v29) = Cert.Spec.norm (m ((c : Thread nD τ).loc main_arg1)) := (W8_of_ne m ρ c main_v29 (by decide)).trans (w7_v29 m ρ c)
theorem w8_arg4 : W8 m ρ c (Proc.devRef .tc main_arg4) = (m ((c : Thread nD τ).loc main_arg4)) := (W8_of_ne m ρ c main_arg4 (by decide)).trans (w7_arg4 m ρ c)
theorem w8_arg5 : W8 m ρ c (Proc.devRef .tc main_arg5) = (m ((c : Thread nD τ).loc main_arg5)) := (W8_of_ne m ρ c main_arg5 (by decide)).trans (w7_arg5 m ρ c)
theorem w8_arg6 : W8 m ρ c (Proc.devRef .tc main_arg6) = (m ((c : Thread nD τ).loc main_arg6)) := (W8_of_ne m ρ c main_arg6 (by decide)).trans (w7_arg6 m ρ c)
theorem w8_arg7 : W8 m ρ c (Proc.devRef .tc main_arg7) = (m ((c : Thread nD τ).loc main_arg7)) := (W8_of_ne m ρ c main_arg7 (by decide)).trans (w7_arg7 m ρ c)

/-! ## Before the second layer's dense kernel -/

theorem w9_v53 : W9 m ρ c (Proc.devRef .tc main_v53) = Cert.Spec.layer (m ((c : Thread nD τ).loc main_arg1)) (Cert.Spec.enc (m ((c : Thread nD τ).loc main_arg0)) (m ((c : Thread nD τ).loc main_arg2)) (m ((c : Thread nD τ).loc main_arg3))) (Cert.Spec.convW0 (m ((c : Thread nD τ).loc main_arg4))) (Cert.Spec.convB0 (m ((c : Thread nD τ).loc main_arg5))) := (k_f_v53 (W8 m ρ c)).trans (w8_v53 m ρ c)
theorem w9_v55 : W9 m ρ c (Proc.devRef .tc main_v55) = Cert.Spec.convW1 (m ((c : Thread nD τ).loc main_arg4)) := (f_weight (W8 m ρ c)).trans (by rw [w8_arg4])
theorem w9_v56 : W9 m ρ c (Proc.devRef .tc main_v56) = Cert.Spec.zeroRow shapeCasts_S128_S1x128 :=
  (f_zeroRow (W8 m ρ c)).trans (by rw [w8_v32]; exact (Cert.Spec.zeroRow_eq _).symm)
theorem w9_v3 : W9 m ρ c (Proc.devRef .tc main_v3) = Cert.Spec.src (m ((c : Thread nD τ).loc main_arg1)) := (k_f_v3 (W8 m ρ c)).trans (w8_v3 m ρ c)
theorem w9_v6 : W9 m ρ c (Proc.devRef .tc main_v6) = Cert.Spec.dst (m ((c : Thread nD τ).loc main_arg1)) := (k_f_v6 (W8 m ρ c)).trans (w8_v6 m ρ c)
theorem w9_v29 : W9 m ρ c (Proc.devRef .tc main_v29) = Cert.Spec.norm (m ((c : Thread nD τ).loc main_arg1)) := (k_f_v29 (W8 m ρ c)).trans (w8_v29 m ρ c)
theorem w9_arg5 : W9 m ρ c (Proc.devRef .tc main_arg5) = (m ((c : Thread nD τ).loc main_arg5)) := (k_f_arg5 (W8 m ρ c)).trans (w8_arg5 m ρ c)
theorem w9_arg6 : W9 m ρ c (Proc.devRef .tc main_arg6) = (m ((c : Thread nD τ).loc main_arg6)) := (k_f_arg6 (W8 m ρ c)).trans (w8_arg6 m ρ c)
theorem w9_arg7 : W9 m ρ c (Proc.devRef .tc main_arg7) = (m ((c : Thread nD τ).loc main_arg7)) := (k_f_arg7 (W8 m ρ c)).trans (w8_arg7 m ρ c)

/-! ## The second layer's dense kernel -/

theorem w10_v57 : W10 m ρ c (Proc.devRef .tc main_v57) = Cert.Spec.lin128 (Cert.Spec.layer (m ((c : Thread nD τ).loc main_arg1)) (Cert.Spec.enc (m ((c : Thread nD τ).loc main_arg0)) (m ((c : Thread nD τ).loc main_arg2)) (m ((c : Thread nD τ).loc main_arg3))) (Cert.Spec.convW0 (m ((c : Thread nD τ).loc main_arg4))) (Cert.Spec.convB0 (m ((c : Thread nD τ).loc main_arg5)))) (Cert.Spec.convW1 (m ((c : Thread nD τ).loc main_arg4))) :=
  (W10_arr m ρ c 3).trans ((final3 (V9 m ρ) c).trans (by
    show Cert.Spec.linRow (W9 m ρ c (Proc.devRef .tc main_v53)) (W9 m ρ c (Proc.devRef .tc main_v55)) (W9 m ρ c (Proc.devRef .tc main_v56)) = _
    rw [w9_v53, w9_v55, w9_v56]
    exact Cert.Spec.linRow_zero _ _ _))
theorem w10_v3 : W10 m ρ c (Proc.devRef .tc main_v3) = Cert.Spec.src (m ((c : Thread nD τ).loc main_arg1)) := (W10_of_ne m ρ c main_v3 (by decide)).trans (w9_v3 m ρ c)
theorem w10_v6 : W10 m ρ c (Proc.devRef .tc main_v6) = Cert.Spec.dst (m ((c : Thread nD τ).loc main_arg1)) := (W10_of_ne m ρ c main_v6 (by decide)).trans (w9_v6 m ρ c)
theorem w10_v29 : W10 m ρ c (Proc.devRef .tc main_v29) = Cert.Spec.norm (m ((c : Thread nD τ).loc main_arg1)) := (W10_of_ne m ρ c main_v29 (by decide)).trans (w9_v29 m ρ c)
theorem w10_arg5 : W10 m ρ c (Proc.devRef .tc main_arg5) = (m ((c : Thread nD τ).loc main_arg5)) := (W10_of_ne m ρ c main_arg5 (by decide)).trans (w9_arg5 m ρ c)
theorem w10_arg6 : W10 m ρ c (Proc.devRef .tc main_arg6) = (m ((c : Thread nD τ).loc main_arg6)) := (W10_of_ne m ρ c main_arg6 (by decide)).trans (w9_arg6 m ρ c)
theorem w10_arg7 : W10 m ρ c (Proc.devRef .tc main_arg7) = (m ((c : Thread nD τ).loc main_arg7)) := (W10_of_ne m ρ c main_arg7 (by decide)).trans (w9_arg7 m ρ c)

/-! ## Between the second layer's kernels -/

theorem w11_v70 : W11 m ρ c (Proc.devRef .tc main_v70) = Cert.Spec.agg (m ((c : Thread nD τ).loc main_arg1)) (Cert.Spec.lin128 (Cert.Spec.layer (m ((c : Thread nD τ).loc main_arg1)) (Cert.Spec.enc (m ((c : Thread nD τ).loc main_arg0)) (m ((c : Thread nD τ).loc main_arg2)) (m ((c : Thread nD τ).loc main_arg3))) (Cert.Spec.convW0 (m ((c : Thread nD τ).loc main_arg4))) (Cert.Spec.convB0 (m ((c : Thread nD τ).loc main_arg5)))) (Cert.Spec.convW1 (m ((c : Thread nD τ).loc main_arg4)))) :=
  (g_agg (W10 m ρ c)).trans (by rw [w10_v3, w10_v6, w10_v29, w10_v57]; exact (Cert.Spec.agg_eq _ _).symm)
theorem w11_v73 : W11 m ρ c (Proc.devRef .tc main_v73) = shapeCast S1x128 (Cert.Spec.convB1 (m ((c : Thread nD τ).loc main_arg5))) shapeCasts_S128_S1x128 :=
  (g_bias (W10 m ρ c)).trans (by rw [w10_arg5])
theorem w11_arg6 : W11 m ρ c (Proc.devRef .tc main_arg6) = (m ((c : Thread nD τ).loc main_arg6)) := (k_g_arg6 (W10 m ρ c)).trans (w10_arg6 m ρ c)
theorem w11_arg7 : W11 m ρ c (Proc.devRef .tc main_arg7) = (m ((c : Thread nD τ).loc main_arg7)) := (k_g_arg7 (W10 m ρ c)).trans (w10_arg7 m ρ c)

/-! ## The second layer's pointwise kernel -/

theorem w12_v74 : W12 m ρ c (Proc.devRef .tc main_v74) = Cert.Spec.layer (m ((c : Thread nD τ).loc main_arg1)) (Cert.Spec.layer (m ((c : Thread nD τ).loc main_arg1)) (Cert.Spec.enc (m ((c : Thread nD τ).loc main_arg0)) (m ((c : Thread nD τ).loc main_arg2)) (m ((c : Thread nD τ).loc main_arg3))) (Cert.Spec.convW0 (m ((c : Thread nD τ).loc main_arg4))) (Cert.Spec.convB0 (m ((c : Thread nD τ).loc main_arg5)))) (Cert.Spec.convW1 (m ((c : Thread nD τ).loc main_arg4))) (Cert.Spec.convB1 (m ((c : Thread nD τ).loc main_arg5))) :=
  (W12_arr m ρ c 2).trans ((final4 (V11 m ρ) c).trans (by
    show Cert.Spec.biasAct (W11 m ρ c (Proc.devRef .tc main_v70)) (W11 m ρ c (Proc.devRef .tc main_v73)) = _
    rw [w11_v70, w11_v73]
    exact (layer_cast _ _ _ _ _).symm))
theorem w12_arg6 : W12 m ρ c (Proc.devRef .tc main_arg6) = (m ((c : Thread nD τ).loc main_arg6)) := (W12_of_ne m ρ c main_arg6 (by decide)).trans (w11_arg6 m ρ c)
theorem w12_arg7 : W12 m ρ c (Proc.devRef .tc main_arg7) = (m ((c : Thread nD τ).loc main_arg7)) := (W12_of_ne m ρ c main_arg7 (by decide)).trans (w11_arg7 m ρ c)

/-! ## Before the decoder: its bias as a row -/

theorem w13_v74 : W13 m ρ c (Proc.devRef .tc main_v74) = Cert.Spec.layer (m ((c : Thread nD τ).loc main_arg1)) (Cert.Spec.layer (m ((c : Thread nD τ).loc main_arg1)) (Cert.Spec.enc (m ((c : Thread nD τ).loc main_arg0)) (m ((c : Thread nD τ).loc main_arg2)) (m ((c : Thread nD τ).loc main_arg3))) (Cert.Spec.convW0 (m ((c : Thread nD τ).loc main_arg4))) (Cert.Spec.convB0 (m ((c : Thread nD τ).loc main_arg5)))) (Cert.Spec.convW1 (m ((c : Thread nD τ).loc main_arg4))) (Cert.Spec.convB1 (m ((c : Thread nD τ).loc main_arg5))) := (k_h_v74 (W12 m ρ c)).trans (w12_v74 m ρ c)
theorem w13_v75 : W13 m ρ c (Proc.devRef .tc main_v75) = shapeCast S1x64 (m ((c : Thread nD τ).loc main_arg7)) shapeCasts_S64_S1x64 :=
  (h_bias (W12 m ρ c)).trans (by rw [w12_arg7])
theorem w13_arg6 : W13 m ρ c (Proc.devRef .tc main_arg6) = (m ((c : Thread nD τ).loc main_arg6)) := (k_h_arg6 (W12 m ρ c)).trans (w12_arg6 m ρ c)

/-! ## The decoder's kernel: the result -/

theorem result : W14 m ρ c (Proc.devRef .tc main_v76) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W14_arr m ρ c 3).trans ((final5 (V13 m ρ) c).trans (by
    show Cert.Spec.decLin (W13 m ρ c (Proc.devRef .tc main_v74)) (W13 m ρ c (Proc.devRef .tc main_arg6)) (W13 m ρ c (Proc.devRef .tc main_v75)) = _
    rw [w13_v74, w13_arg6, w13_v75]
    unfold Cert.Spec.out
    rw [Cert.Spec.row64_eq_cast]))

end Cert.KernelIdeal.Chain

end
-- ==== Proof.RefOps.lean ====
/-
  The reference program as one straight line of host operations, and its run.

  The program's entry function is two windows run in order; its four calls of module-local functions are the
  callees' operations written in place over each call's own buffers (the selection of `where`: the scalar
  converted to its own type, broadcast, then the select; the leaky rectifier: the zero, its broadcast, the
  comparison, the slope converted and broadcast, the product, then the select). `ops` lists the 120 operations
  in program order, `main_eq` says the entry function is exactly that line, and `run_all` reads the run back:
  every weakly fair execution terminates, and each buffer ends at the fold of the operations' results over the
  contents at launch.
-/
import proofs.«178511_j28037546508929_1_alg».proof.Proof.Spec
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

/-- The entry function's 120 operations, in order, the calls written out over their own buffers. -/
abbrev ops : List (HloOp τ sig (Elt F)) :=
  [
    StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3DCCCCCD#32),
    TRef.nullary main_call1.cst (constant S_ .f32 0x00000000#32),
    TRef.unary main_call1.cst main_call1.v0 (broadcastInDim S50000x128 ![] bcast_S_S50000x128),
    TRef.binary (.of main_v33 : TRef sig ⟨S50000x128, .f32⟩) main_call1.v0 main_call1.v1 (cmpf .oge),
    TRef.unary (.of main_cst_6 : TRef sig ⟨S_, .f32⟩) main_call1.v2 id,
    TRef.unary main_call1.v2 main_call1.v3 (broadcastInDim S50000x128 ![] bcast_S_S50000x128),
    TRef.binary main_call1.v3 (.of main_v33 : TRef sig ⟨S50000x128, .f32⟩) main_call1.v4 mulf,
    TRef.ternary main_call1.v1 (.of main_v33 : TRef sig ⟨S50000x128, .f32⟩) main_call1.v4 main_call1.call0.v0 select,
    StableHlo.unary main_arg4 main_v35 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v35 main_v36 rfl shapeCasts_S1x128x128_S128x128,
    StableHlo.unary main_arg5 main_v37 ((extractStridedSlice S1x128 ![0, 0] · slices_S2x128_S1x128_0_0) : (⟨S2x128, .f32⟩ : BufTy).Contents (Elt F) → (⟨S1x128, .f32⟩ : BufTy).Contents (Elt F)),
    StableHlo.reshape main_v37 main_v38 rfl shapeCasts_S1x128_S128,
    StableHlo.binary main_v34 main_v36 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v40 (broadcastInDim S850000 ![] bcast_S_S850000 : (⟨S_, .i32⟩ : BufTy).Contents (Elt F) → (⟨S850000, .i32⟩ : BufTy).Contents (Elt F)),
    StableHlo.binary main_v3 main_v40 main_v41 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v42 (broadcastInDim S850000 ![] bcast_S_S850000 : (⟨S_, .i32⟩ : BufTy).Contents (Elt F) → (⟨S850000, .i32⟩ : BufTy).Contents (Elt F)),
    StableHlo.binary main_v3 main_v42 main_v43 (addi : (⟨S850000, .i32⟩ : BufTy).Contents (Elt F) → (⟨S850000, .i32⟩ : BufTy).Contents (Elt F) → (⟨S850000, .i32⟩ : BufTy).Contents (Elt F)),
    StableHlo.ternary main_v41 main_v43 main_v3 main_v44 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v44 main_v45 (broadcastInDim S850000x1 ![0] bcast_S850000_S850000x1_0 : (⟨S850000, .i32⟩ : BufTy).Contents (Elt F) → (⟨S850000x1, .i32⟩ : BufTy).Contents (Elt F)),
    StableHlo.binary main_v39 main_v45 main_v46 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v47 (broadcastInDim S850000x1 ![0] bcast_S850000_S850000x1_0 : (⟨S850000, .f32⟩ : BufTy).Contents (Elt F) → (⟨S850000x1, .f32⟩ : BufTy).Contents (Elt F)),
    StableHlo.unary main_v47 main_v48 (broadcastInDim S850000x128 ![0, 1] bcast_S850000x1_S850000x128_0_1 : (⟨S850000x1, .f32⟩ : BufTy).Contents (Elt F) → (⟨S850000x128, .f32⟩ : BufTy).Contents (Elt F)),
    StableHlo.binary main_v46 main_v48 main_v49 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v50 (broadcastInDim S50000x128 ![] bcast_S_S50000x128 : (⟨S_, .f32⟩ : BufTy).Contents (Elt F) → (⟨S50000x128, .f32⟩ : BufTy).Contents (Elt F)),
    StableHlo.unary main_v6 main_v51 (broadcastInDim S850000x1 ![0] bcast_S850000_S850000x1_0 : (⟨S850000, .i32⟩ : BufTy).Contents (Elt F) → (⟨S850000x1, .i32⟩ : BufTy).Contents (Elt F)),
    StableHlo.ternary main_v50 main_v51 main_v49 main_v52 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_v38 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3DCCCCCD#32),
    TRef.nullary main_call2.cst (constant S_ .f32 0x00000000#32),
    TRef.unary main_call2.cst main_call2.v0 (broadcastInDim S50000x128 ![] bcast_S_S50000x128),
    TRef.binary (.of main_v55 : TRef sig ⟨S50000x128, .f32⟩) main_call2.v0 main_call2.v1 (cmpf .oge),
    TRef.unary (.of main_cst_10 : TRef sig ⟨S_, .f32⟩) main_call2.v2 id,
    TRef.unary main_call2.v2 main_call2.v3 (broadcastInDim S50000x128 ![] bcast_S_S50000x128),
    TRef.binary main_call2.v3 (.of main_v55 : TRef sig ⟨S50000x128, .f32⟩) main_call2.v4 mulf,
    TRef.ternary main_call2.v1 (.of main_v55 : TRef sig ⟨S50000x128, .f32⟩) main_call2.v4 main_call2.call0.v0 select,
    StableHlo.unary main_arg4 main_v57 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v57 main_v58 rfl shapeCasts_S1x128x128_S128x128,
    StableHlo.unary main_arg5 main_v59 ((extractStridedSlice S1x128 ![1, 0] · slices_S2x128_S1x128_1_0) : (⟨S2x128, .f32⟩ : BufTy).Contents (Elt F) → (⟨S1x128, .f32⟩ : BufTy).Contents (Elt F)),
    StableHlo.reshape main_v59 main_v60 rfl shapeCasts_S1x128_S128,
    StableHlo.binary main_v56 main_v58 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v62 (broadcastInDim S850000 ![] bcast_S_S850000 : (⟨S_, .i32⟩ : BufTy).Contents (Elt F) → (⟨S850000, .i32⟩ : BufTy).Contents (Elt F)),
    StableHlo.binary main_v3 main_v62 main_v63 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v64 (broadcastInDim S850000 ![] bcast_S_S850000 : (⟨S_, .i32⟩ : BufTy).Contents (Elt F) → (⟨S850000, .i32⟩ : BufTy).Contents (Elt F)),
    StableHlo.binary main_v3 main_v64 main_v65 (addi : (⟨S850000, .i32⟩ : BufTy).Contents (Elt F) → (⟨S850000, .i32⟩ : BufTy).Contents (Elt F) → (⟨S850000, .i32⟩ : BufTy).Contents (Elt F)),
    StableHlo.ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v66 main_v67 (broadcastInDim S850000x1 ![0] bcast_S850000_S850000x1_0 : (⟨S850000, .i32⟩ : BufTy).Contents (Elt F) → (⟨S850000x1, .i32⟩ : BufTy).Contents (Elt F)),
    StableHlo.binary main_v61 main_v67 main_v68 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v69 (broadcastInDim S850000x1 ![0] bcast_S850000_S850000x1_0 : (⟨S850000, .f32⟩ : BufTy).Contents (Elt F) → (⟨S850000x1, .f32⟩ : BufTy).Contents (Elt F)),
    StableHlo.unary main_v69 main_v70 (broadcastInDim S850000x128 ![0, 1] bcast_S850000x1_S850000x128_0_1 : (⟨S850000x1, .f32⟩ : BufTy).Contents (Elt F) → (⟨S850000x128, .f32⟩ : BufTy).Contents (Elt F)),
    StableHlo.binary main_v68 main_v70 main_v71 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v72 (broadcastInDim S50000x128 ![] bcast_S_S50000x128 : (⟨S_, .f32⟩ : BufTy).Contents (Elt F) → (⟨S50000x128, .f32⟩ : BufTy).Contents (Elt F)),
    StableHlo.unary main_v6 main_v73 (broadcastInDim S850000x1 ![0] bcast_S850000_S850000x1_0 : (⟨S850000, .i32⟩ : BufTy).Contents (Elt F) → (⟨S850000x1, .i32⟩ : BufTy).Contents (Elt F)),
    StableHlo.ternary main_v72 main_v73 main_v71 main_v74 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_v60 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3DCCCCCD#32),
    TRef.nullary main_call3.cst (constant S_ .f32 0x00000000#32),
    TRef.unary main_call3.cst main_call3.v0 (broadcastInDim S50000x128 ![] bcast_S_S50000x128),
    TRef.binary (.of main_v77 : TRef sig ⟨S50000x128, .f32⟩) main_call3.v0 main_call3.v1 (cmpf .oge),
    TRef.unary (.of main_cst_14 : TRef sig ⟨S_, .f32⟩) main_call3.v2 id,
    TRef.unary main_call3.v2 main_call3.v3 (broadcastInDim S50000x128 ![] bcast_S_S50000x128),
    TRef.binary main_call3.v3 (.of main_v77 : TRef sig ⟨S50000x128, .f32⟩) main_call3.v4 mulf,
    TRef.ternary main_call3.v1 (.of main_v77 : TRef sig ⟨S50000x128, .f32⟩) main_call3.v4 main_call3.call0.v0 select,
    StableHlo.binary main_v78 main_arg6 main_v79 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg7 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (addf : (⟨S50000x64, .f32⟩ : BufTy).Contents (Elt F) → (⟨S50000x64, .f32⟩ : BufTy).Contents (Elt F) → (⟨S50000x64, .f32⟩ : BufTy).Contents (Elt F)) ]

-- one hundred and twenty binds re-associated: the rewrite under the chain recurses once per statement
set_option maxRecDepth 8192 in
set_option maxHeartbeats 4000000 in
/-- The entry function is that straight line: the two windows and the callees unfolded at their calls, the
    records at their fields, and sequencing re-associated, both sides are one chain of the same steps. -/
theorem main_eq (c : Dev nD) : main (F := F) c = seq ops := by
  simp only [main, main_part0, main_part1, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨
    nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    unary_bufs_sub .., reshape_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..⟩

set_option maxRecDepth 8192 in
set_option maxHeartbeats 4000000 in
/-- From any memory with zero counters, every weakly fair execution of the entry function terminates, and every
    final state has each buffer of each device at the fold of the operations' results over the contents at launch. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference program's run leaves in its result buffer: the network of `Cert.Spec.out` applied to the
  eight arguments' contents at launch, the arguments unchanged.

  The fold of the 120 operations' results, read at one buffer, is that operation's function applied to the
  contents of its operands, those read the same way down to the arguments; the composed term is the
  specification's own (the same host operations over the same records), so the two agree by unfolding. Read in
  one piece the term repeats each layer's input three times over (the rectifier reads its operand in the
  comparison, in the product and in the selection) and the edge list's quantities once per use, so the line is cut
  into eleven parts at the places where a named piece of the specification is complete. Each part is read over an
  arbitrary valuation `V`: its result buffer is a piece of the specification applied to `V` at the buffers the part
  reads, and every buffer it does not write is read after it as before it. `after (a ++ b) V = after b (after a V)`
  then chains the parts, and the pieces stated over their parts (`dinvOf`, `normOf`, `aggOf`) fold back to the
  specification's by their defining equations. The gather, the scatter-add and the reciprocal square root stay
  folded throughout: no equation here looks inside them.
-/
import proofs.«178511_j28037546508929_1_alg».proof.Proof.RefOps
import proofs.«178511_j28037546508929_1_alg».proof.Proof.SpecFacts

set_option Elab.async false

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

section Parts

variable {F : FTy → Type} [FloatOps F]

/-- Operations 1 … 18: the two endpoint lists with the self loops, the degrees, where they are positive, their inverse square roots, the scalar zero. -/
def pa : List (HloOp τ sig (Elt F)) :=
  [
    StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

/-- Operations 19 … 21: the selection of the inverse square root where the degree is positive. -/
def pb : List (HloOp τ sig (Elt F)) :=
  [
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select ]

/-- Operations 22 … 40: the per-edge product of the inverse square roots at the two endpoints. -/
def pc : List (HloOp τ sig (Elt F)) :=
  [
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 … 52: the encoder. -/
def pd : List (HloOp τ sig (Elt F)) :=
  [
    StableHlo.binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3DCCCCCD#32),
    TRef.nullary main_call1.cst (constant S_ .f32 0x00000000#32),
    TRef.unary main_call1.cst main_call1.v0 (broadcastInDim S50000x128 ![] bcast_S_S50000x128),
    TRef.binary (.of main_v33 : TRef sig ⟨S50000x128, .f32⟩) main_call1.v0 main_call1.v1 (cmpf .oge),
    TRef.unary (.of main_cst_6 : TRef sig ⟨S_, .f32⟩) main_call1.v2 id,
    TRef.unary main_call1.v2 main_call1.v3 (broadcastInDim S50000x128 ![] bcast_S_S50000x128),
    TRef.binary main_call1.v3 (.of main_v33 : TRef sig ⟨S50000x128, .f32⟩) main_call1.v4 mulf,
    TRef.ternary main_call1.v1 (.of main_v33 : TRef sig ⟨S50000x128, .f32⟩) main_call1.v4 main_call1.call0.v0 select ]

/-- Operations 53 … 57: the first layer's weight and bias cut out of the stacks, the input times the weight. -/
def pe1 : List (HloOp τ sig (Elt F)) :=
  [
    StableHlo.unary main_arg4 main_v35 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v35 main_v36 rfl shapeCasts_S1x128x128_S128x128,
    StableHlo.unary main_arg5 main_v37 ((extractStridedSlice S1x128 ![0, 0] · slices_S2x128_S1x128_0_0) : (⟨S2x128, .f32⟩ : BufTy).Contents (Elt F) → (⟨S1x128, .f32⟩ : BufTy).Contents (Elt F)),
    StableHlo.reshape main_v37 main_v38 rfl shapeCasts_S1x128_S128,
    StableHlo.binary main_v34 main_v36 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 58 … 73: the rows gathered at the sources, scaled, summed into the targets. -/
def pe2 : List (HloOp τ sig (Elt F)) :=
  [
    StableHlo.nullary main_c_7 (constantI S_ 32 0#32),
    StableHlo.unary main_c_7 main_v40 (broadcastInDim S850000 ![] bcast_S_S850000 : (⟨S_, .i32⟩ : BufTy).Contents (Elt F) → (⟨S850000, .i32⟩ : BufTy).Contents (Elt F)),
    StableHlo.binary main_v3 main_v40 main_v41 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v42 (broadcastInDim S850000 ![] bcast_S_S850000 : (⟨S_, .i32⟩ : BufTy).Contents (Elt F) → (⟨S850000, .i32⟩ : BufTy).Contents (Elt F)),
    StableHlo.binary main_v3 main_v42 main_v43 (addi : (⟨S850000, .i32⟩ : BufTy).Contents (Elt F) → (⟨S850000, .i32⟩ : BufTy).Contents (Elt F) → (⟨S850000, .i32⟩ : BufTy).Contents (Elt F)),
    StableHlo.ternary main_v41 main_v43 main_v3 main_v44 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v44 main_v45 (broadcastInDim S850000x1 ![0] bcast_S850000_S850000x1_0 : (⟨S850000, .i32⟩ : BufTy).Contents (Elt F) → (⟨S850000x1, .i32⟩ : BufTy).Contents (Elt F)),
    StableHlo.binary main_v39 main_v45 main_v46 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v47 (broadcastInDim S850000x1 ![0] bcast_S850000_S850000x1_0 : (⟨S850000, .f32⟩ : BufTy).Contents (Elt F) → (⟨S850000x1, .f32⟩ : BufTy).Contents (Elt F)),
    StableHlo.unary main_v47 main_v48 (broadcastInDim S850000x128 ![0, 1] bcast_S850000x1_S850000x128_0_1 : (⟨S850000x1, .f32⟩ : BufTy).Contents (Elt F) → (⟨S850000x128, .f32⟩ : BufTy).Contents (Elt F)),
    StableHlo.binary main_v46 main_v48 main_v49 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v50 (broadcastInDim S50000x128 ![] bcast_S_S50000x128 : (⟨S_, .f32⟩ : BufTy).Contents (Elt F) → (⟨S50000x128, .f32⟩ : BufTy).Contents (Elt F)),
    StableHlo.unary main_v6 main_v51 (broadcastInDim S850000x1 ![0] bcast_S850000_S850000x1_0 : (⟨S850000, .i32⟩ : BufTy).Contents (Elt F) → (⟨S850000x1, .i32⟩ : BufTy).Contents (Elt F)),
    StableHlo.ternary main_v50 main_v51 main_v49 main_v52 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 74 … 84: the bias added as rows, the rectifier. -/
def pe3 : List (HloOp τ sig (Elt F)) :=
  [
    StableHlo.unary main_v38 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3DCCCCCD#32),
    TRef.nullary main_call2.cst (constant S_ .f32 0x00000000#32),
    TRef.unary main_call2.cst main_call2.v0 (broadcastInDim S50000x128 ![] bcast_S_S50000x128),
    TRef.binary (.of main_v55 : TRef sig ⟨S50000x128, .f32⟩) main_call2.v0 main_call2.v1 (cmpf .oge),
    TRef.unary (.of main_cst_10 : TRef sig ⟨S_, .f32⟩) main_call2.v2 id,
    TRef.unary main_call2.v2 main_call2.v3 (broadcastInDim S50000x128 ![] bcast_S_S50000x128),
    TRef.binary main_call2.v3 (.of main_v55 : TRef sig ⟨S50000x128, .f32⟩) main_call2.v4 mulf,
    TRef.ternary main_call2.v1 (.of main_v55 : TRef sig ⟨S50000x128, .f32⟩) main_call2.v4 main_call2.call0.v0 select ]

/-- Operations 85 … 89: the second layer's weight and bias, the input times the weight. -/
def pf1 : List (HloOp τ sig (Elt F)) :=
  [
    StableHlo.unary main_arg4 main_v57 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v57 main_v58 rfl shapeCasts_S1x128x128_S128x128,
    StableHlo.unary main_arg5 main_v59 ((extractStridedSlice S1x128 ![1, 0] · slices_S2x128_S1x128_1_0) : (⟨S2x128, .f32⟩ : BufTy).Contents (Elt F) → (⟨S1x128, .f32⟩ : BufTy).Contents (Elt F)),
    StableHlo.reshape main_v59 main_v60 rfl shapeCasts_S1x128_S128,
    StableHlo.binary main_v56 main_v58 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 90 … 105: the rows gathered at the sources, scaled, summed into the targets. -/
def pf2 : List (HloOp τ sig (Elt F)) :=
  [
    StableHlo.nullary main_c_11 (constantI S_ 32 0#32),
    StableHlo.unary main_c_11 main_v62 (broadcastInDim S850000 ![] bcast_S_S850000 : (⟨S_, .i32⟩ : BufTy).Contents (Elt F) → (⟨S850000, .i32⟩ : BufTy).Contents (Elt F)),
    StableHlo.binary main_v3 main_v62 main_v63 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v64 (broadcastInDim S850000 ![] bcast_S_S850000 : (⟨S_, .i32⟩ : BufTy).Contents (Elt F) → (⟨S850000, .i32⟩ : BufTy).Contents (Elt F)),
    StableHlo.binary main_v3 main_v64 main_v65 (addi : (⟨S850000, .i32⟩ : BufTy).Contents (Elt F) → (⟨S850000, .i32⟩ : BufTy).Contents (Elt F) → (⟨S850000, .i32⟩ : BufTy).Contents (Elt F)),
    StableHlo.ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v66 main_v67 (broadcastInDim S850000x1 ![0] bcast_S850000_S850000x1_0 : (⟨S850000, .i32⟩ : BufTy).Contents (Elt F) → (⟨S850000x1, .i32⟩ : BufTy).Contents (Elt F)),
    StableHlo.binary main_v61 main_v67 main_v68 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v69 (broadcastInDim S850000x1 ![0] bcast_S850000_S850000x1_0 : (⟨S850000, .f32⟩ : BufTy).Contents (Elt F) → (⟨S850000x1, .f32⟩ : BufTy).Contents (Elt F)),
    StableHlo.unary main_v69 main_v70 (broadcastInDim S850000x128 ![0, 1] bcast_S850000x1_S850000x128_0_1 : (⟨S850000x1, .f32⟩ : BufTy).Contents (Elt F) → (⟨S850000x128, .f32⟩ : BufTy).Contents (Elt F)),
    StableHlo.binary main_v68 main_v70 main_v71 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v72 (broadcastInDim S50000x128 ![] bcast_S_S50000x128 : (⟨S_, .f32⟩ : BufTy).Contents (Elt F) → (⟨S50000x128, .f32⟩ : BufTy).Contents (Elt F)),
    StableHlo.unary main_v6 main_v73 (broadcastInDim S850000x1 ![0] bcast_S850000_S850000x1_0 : (⟨S850000, .i32⟩ : BufTy).Contents (Elt F) → (⟨S850000x1, .i32⟩ : BufTy).Contents (Elt F)),
    StableHlo.ternary main_v72 main_v73 main_v71 main_v74 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 106 … 116: the bias added as rows, the rectifier. -/
def pf3 : List (HloOp τ sig (Elt F)) :=
  [
    StableHlo.unary main_v60 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3DCCCCCD#32),
    TRef.nullary main_call3.cst (constant S_ .f32 0x00000000#32),
    TRef.unary main_call3.cst main_call3.v0 (broadcastInDim S50000x128 ![] bcast_S_S50000x128),
    TRef.binary (.of main_v77 : TRef sig ⟨S50000x128, .f32⟩) main_call3.v0 main_call3.v1 (cmpf .oge),
    TRef.unary (.of main_cst_14 : TRef sig ⟨S_, .f32⟩) main_call3.v2 id,
    TRef.unary main_call3.v2 main_call3.v3 (broadcastInDim S50000x128 ![] bcast_S_S50000x128),
    TRef.binary main_call3.v3 (.of main_v77 : TRef sig ⟨S50000x128, .f32⟩) main_call3.v4 mulf,
    TRef.ternary main_call3.v1 (.of main_v77 : TRef sig ⟨S50000x128, .f32⟩) main_call3.v4 main_call3.call0.v0 select ]

/-- Operations 117 … 120: the decoder. -/
def pg : List (HloOp τ sig (Elt F)) :=
  [
    StableHlo.binary main_v78 main_arg6 main_v79 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg7 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (addf : (⟨S50000x64, .f32⟩ : BufTy).Contents (Elt F) → (⟨S50000x64, .f32⟩ : BufTy).Contents (Elt F) → (⟨S50000x64, .f32⟩ : BufTy).Contents (Elt F)) ]

/-- The line is its eleven parts in order. -/
theorem ops_split : (ops : List (HloOp τ sig (Elt F))) = pa ++ (pb ++ (pc ++ (pd ++ (pe1 ++ (pe2 ++ (pe3 ++ (pf1 ++ (pf2 ++ (pf3 ++ (pg)))))))))) := rfl

end Parts

/-- Running two lines one after the other folds the second over the first's result. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

section Read

attribute [local irreducible] Host.gather Host.scatterAdd Host.rsqrt

/-! ## The endpoint lists and the degrees -/

theorem a_src (V : Valuation τ sig (Elt Ideal)) :
    after (pa (F := Ideal)) V (main_v3 : DevRef τ sig)
      = Cert.Spec.src (V (main_arg1 : DevRef τ sig)) := by
  unfold pa
  after_results_simp
  rfl

theorem a_dst (V : Valuation τ sig (Elt Ideal)) :
    after (pa (F := Ideal)) V (main_v6 : DevRef τ sig)
      = Cert.Spec.dst (V (main_arg1 : DevRef τ sig)) := by
  unfold pa
  after_results_simp
  rfl

theorem a_pos (V : Valuation τ sig (Elt Ideal)) :
    after (pa (F := Ideal)) V (main_v12 : DevRef τ sig)
      = Cert.Spec.degPos (V (main_arg1 : DevRef τ sig)) := by
  unfold pa
  after_results_simp
  rfl

theorem a_rsqrt (V : Valuation τ sig (Elt Ideal)) :
    after (pa (F := Ideal)) V (main_v13 : DevRef τ sig)
      = Cert.Spec.degRsqrt (V (main_arg1 : DevRef τ sig)) := by
  unfold pa
  after_results_simp
  rfl

theorem a_zero (V : Valuation τ sig (Elt Ideal)) :
    after (pa (F := Ideal)) V (main_cst_2 : DevRef τ sig)
      = Cert.Spec.zero0 := by
  unfold pa
  after_results_simp
  rfl

/-- What this part does not write. -/
theorem pa_keep_arg0 (V : Valuation τ sig (Elt Ideal)) : after (pa (F := Ideal)) V (main_arg0 : DevRef τ sig) = V (main_arg0 : DevRef τ sig) := by
  unfold pa; after_results_simp
theorem pa_keep_arg2 (V : Valuation τ sig (Elt Ideal)) : after (pa (F := Ideal)) V (main_arg2 : DevRef τ sig) = V (main_arg2 : DevRef τ sig) := by
  unfold pa; after_results_simp
theorem pa_keep_arg3 (V : Valuation τ sig (Elt Ideal)) : after (pa (F := Ideal)) V (main_arg3 : DevRef τ sig) = V (main_arg3 : DevRef τ sig) := by
  unfold pa; after_results_simp
theorem pa_keep_arg4 (V : Valuation τ sig (Elt Ideal)) : after (pa (F := Ideal)) V (main_arg4 : DevRef τ sig) = V (main_arg4 : DevRef τ sig) := by
  unfold pa; after_results_simp
theorem pa_keep_arg5 (V : Valuation τ sig (Elt Ideal)) : after (pa (F := Ideal)) V (main_arg5 : DevRef τ sig) = V (main_arg5 : DevRef τ sig) := by
  unfold pa; after_results_simp
theorem pa_keep_arg6 (V : Valuation τ sig (Elt Ideal)) : after (pa (F := Ideal)) V (main_arg6 : DevRef τ sig) = V (main_arg6 : DevRef τ sig) := by
  unfold pa; after_results_simp
theorem pa_keep_arg7 (V : Valuation τ sig (Elt Ideal)) : after (pa (F := Ideal)) V (main_arg7 : DevRef τ sig) = V (main_arg7 : DevRef τ sig) := by
  unfold pa; after_results_simp

/-! ## The inverse square roots of the degrees -/

theorem b_dinv (V : Valuation τ sig (Elt Ideal)) :
    after (pb (F := Ideal)) V (main_v14 : DevRef τ sig)
      = Cert.Spec.dinvOf (V (main_v12 : DevRef τ sig)) (V (main_v13 : DevRef τ sig)) (V (main_cst_2 : DevRef τ sig)) := by
  unfold pb
  after_results_simp
  rfl

/-- What this part does not write. -/
theorem pb_keep_arg0 (V : Valuation τ sig (Elt Ideal)) : after (pb (F := Ideal)) V (main_arg0 : DevRef τ sig) = V (main_arg0 : DevRef τ sig) := by
  unfold pb; after_results_simp
theorem pb_keep_arg2 (V : Valuation τ sig (Elt Ideal)) : after (pb (F := Ideal)) V (main_arg2 : DevRef τ sig) = V (main_arg2 : DevRef τ sig) := by
  unfold pb; after_results_simp
theorem pb_keep_arg3 (V : Valuation τ sig (Elt Ideal)) : after (pb (F := Ideal)) V (main_arg3 : DevRef τ sig) = V (main_arg3 : DevRef τ sig) := by
  unfold pb; after_results_simp
theorem pb_keep_arg4 (V : Valuation τ sig (Elt Ideal)) : after (pb (F := Ideal)) V (main_arg4 : DevRef τ sig) = V (main_arg4 : DevRef τ sig) := by
  unfold pb; after_results_simp
theorem pb_keep_arg5 (V : Valuation τ sig (Elt Ideal)) : after (pb (F := Ideal)) V (main_arg5 : DevRef τ sig) = V (main_arg5 : DevRef τ sig) := by
  unfold pb; after_results_simp
theorem pb_keep_arg6 (V : Valuation τ sig (Elt Ideal)) : after (pb (F := Ideal)) V (main_arg6 : DevRef τ sig) = V (main_arg6 : DevRef τ sig) := by
  unfold pb; after_results_simp
theorem pb_keep_arg7 (V : Valuation τ sig (Elt Ideal)) : after (pb (F := Ideal)) V (main_arg7 : DevRef τ sig) = V (main_arg7 : DevRef τ sig) := by
  unfold pb; after_results_simp
theorem pb_keep_v3 (V : Valuation τ sig (Elt Ideal)) : after (pb (F := Ideal)) V (main_v3 : DevRef τ sig) = V (main_v3 : DevRef τ sig) := by
  unfold pb; after_results_simp
theorem pb_keep_v6 (V : Valuation τ sig (Elt Ideal)) : after (pb (F := Ideal)) V (main_v6 : DevRef τ sig) = V (main_v6 : DevRef τ sig) := by
  unfold pb; after_results_simp

/-! ## The per-edge weights -/

theorem c_norm (V : Valuation τ sig (Elt Ideal)) :
    after (pc (F := Ideal)) V (main_v29 : DevRef τ sig)
      = Cert.Spec.normOf (V (main_v14 : DevRef τ sig)) (V (main_v3 : DevRef τ sig)) (V (main_v6 : DevRef τ sig)) := by
  unfold pc
  after_results_simp
  rfl

/-- What this part does not write. -/
theorem pc_keep_arg0 (V : Valuation τ sig (Elt Ideal)) : after (pc (F := Ideal)) V (main_arg0 : DevRef τ sig) = V (main_arg0 : DevRef τ sig) := by
  unfold pc; after_results_simp
theorem pc_keep_arg2 (V : Valuation τ sig (Elt Ideal)) : after (pc (F := Ideal)) V (main_arg2 : DevRef τ sig) = V (main_arg2 : DevRef τ sig) := by
  unfold pc; after_results_simp
theorem pc_keep_arg3 (V : Valuation τ sig (Elt Ideal)) : after (pc (F := Ideal)) V (main_arg3 : DevRef τ sig) = V (main_arg3 : DevRef τ sig) := by
  unfold pc; after_results_simp
theorem pc_keep_arg4 (V : Valuation τ sig (Elt Ideal)) : after (pc (F := Ideal)) V (main_arg4 : DevRef τ sig) = V (main_arg4 : DevRef τ sig) := by
  unfold pc; after_results_simp
theorem pc_keep_arg5 (V : Valuation τ sig (Elt Ideal)) : after (pc (F := Ideal)) V (main_arg5 : DevRef τ sig) = V (main_arg5 : DevRef τ sig) := by
  unfold pc; after_results_simp
theorem pc_keep_arg6 (V : Valuation τ sig (Elt Ideal)) : after (pc (F := Ideal)) V (main_arg6 : DevRef τ sig) = V (main_arg6 : DevRef τ sig) := by
  unfold pc; after_results_simp
theorem pc_keep_arg7 (V : Valuation τ sig (Elt Ideal)) : after (pc (F := Ideal)) V (main_arg7 : DevRef τ sig) = V (main_arg7 : DevRef τ sig) := by
  unfold pc; after_results_simp
theorem pc_keep_v3 (V : Valuation τ sig (Elt Ideal)) : after (pc (F := Ideal)) V (main_v3 : DevRef τ sig) = V (main_v3 : DevRef τ sig) := by
  unfold pc; after_results_simp
theorem pc_keep_v6 (V : Valuation τ sig (Elt Ideal)) : after (pc (F := Ideal)) V (main_v6 : DevRef τ sig) = V (main_v6 : DevRef τ sig) := by
  unfold pc; after_results_simp

/-! ## The encoder -/

theorem d_enc (V : Valuation τ sig (Elt Ideal)) :
    after (pd (F := Ideal)) V (main_v34 : DevRef τ sig)
      = Cert.Spec.enc (V (main_arg0 : DevRef τ sig)) (V (main_arg2 : DevRef τ sig)) (V (main_arg3 : DevRef τ sig)) := by
  unfold pd
  after_results_simp
  rfl

/-- What this part does not write. -/
theorem pd_keep_arg4 (V : Valuation τ sig (Elt Ideal)) : after (pd (F := Ideal)) V (main_arg4 : DevRef τ sig) = V (main_arg4 : DevRef τ sig) := by
  unfold pd; after_results_simp
theorem pd_keep_arg5 (V : Valuation τ sig (Elt Ideal)) : after (pd (F := Ideal)) V (main_arg5 : DevRef τ sig) = V (main_arg5 : DevRef τ sig) := by
  unfold pd; after_results_simp
theorem pd_keep_arg6 (V : Valuation τ sig (Elt Ideal)) : after (pd (F := Ideal)) V (main_arg6 : DevRef τ sig) = V (main_arg6 : DevRef τ sig) := by
  unfold pd; after_results_simp
theorem pd_keep_arg7 (V : Valuation τ sig (Elt Ideal)) : after (pd (F := Ideal)) V (main_arg7 : DevRef τ sig) = V (main_arg7 : DevRef τ sig) := by
  unfold pd; after_results_simp
theorem pd_keep_v29 (V : Valuation τ sig (Elt Ideal)) : after (pd (F := Ideal)) V (main_v29 : DevRef τ sig) = V (main_v29 : DevRef τ sig) := by
  unfold pd; after_results_simp
theorem pd_keep_v3 (V : Valuation τ sig (Elt Ideal)) : after (pd (F := Ideal)) V (main_v3 : DevRef τ sig) = V (main_v3 : DevRef τ sig) := by
  unfold pd; after_results_simp
theorem pd_keep_v6 (V : Valuation τ sig (Elt Ideal)) : after (pd (F := Ideal)) V (main_v6 : DevRef τ sig) = V (main_v6 : DevRef τ sig) := by
  unfold pd; after_results_simp

/-! ## The first layer: the dense product -/

theorem e1_lin (V : Valuation τ sig (Elt Ideal)) :
    after (pe1 (F := Ideal)) V (main_v39 : DevRef τ sig)
      = Cert.Spec.lin128 (V (main_v34 : DevRef τ sig)) (Cert.Spec.convW0 (V (main_arg4 : DevRef τ sig))) := by
  unfold pe1
  after_results_simp
  rfl

theorem e1_bias (V : Valuation τ sig (Elt Ideal)) :
    after (pe1 (F := Ideal)) V (main_v38 : DevRef τ sig)
      = Cert.Spec.convB0 (V (main_arg5 : DevRef τ sig)) := by
  unfold pe1
  after_results_simp
  rfl

/-- What this part does not write. -/
theorem pe1_keep_arg4 (V : Valuation τ sig (Elt Ideal)) : after (pe1 (F := Ideal)) V (main_arg4 : DevRef τ sig) = V (main_arg4 : DevRef τ sig) := by
  unfold pe1; after_results_simp
theorem pe1_keep_arg5 (V : Valuation τ sig (Elt Ideal)) : after (pe1 (F := Ideal)) V (main_arg5 : DevRef τ sig) = V (main_arg5 : DevRef τ sig) := by
  unfold pe1; after_results_simp
theorem pe1_keep_arg6 (V : Valuation τ sig (Elt Ideal)) : after (pe1 (F := Ideal)) V (main_arg6 : DevRef τ sig) = V (main_arg6 : DevRef τ sig) := by
  unfold pe1; after_results_simp
theorem pe1_keep_arg7 (V : Valuation τ sig (Elt Ideal)) : after (pe1 (F := Ideal)) V (main_arg7 : DevRef τ sig) = V (main_arg7 : DevRef τ sig) := by
  unfold pe1; after_results_simp
theorem pe1_keep_v29 (V : Valuation τ sig (Elt Ideal)) : after (pe1 (F := Ideal)) V (main_v29 : DevRef τ sig) = V (main_v29 : DevRef τ sig) := by
  unfold pe1; after_results_simp
theorem pe1_keep_v3 (V : Valuation τ sig (Elt Ideal)) : after (pe1 (F := Ideal)) V (main_v3 : DevRef τ sig) = V (main_v3 : DevRef τ sig) := by
  unfold pe1; after_results_simp
theorem pe1_keep_v6 (V : Valuation τ sig (Elt Ideal)) : after (pe1 (F := Ideal)) V (main_v6 : DevRef τ sig) = V (main_v6 : DevRef τ sig) := by
  unfold pe1; after_results_simp

/-! ## The first layer: the sum over the edges -/

theorem e2_agg (V : Valuation τ sig (Elt Ideal)) :
    after (pe2 (F := Ideal)) V (main_v52 : DevRef τ sig)
      = Cert.Spec.aggOf (V (main_v3 : DevRef τ sig)) (V (main_v6 : DevRef τ sig)) (V (main_v29 : DevRef τ sig)) (V (main_v39 : DevRef τ sig)) := by
  unfold pe2
  after_results_simp
  rfl

/-- What this part does not write. -/
theorem pe2_keep_arg4 (V : Valuation τ sig (Elt Ideal)) : after (pe2 (F := Ideal)) V (main_arg4 : DevRef τ sig) = V (main_arg4 : DevRef τ sig) := by
  unfold pe2; after_results_simp
theorem pe2_keep_arg5 (V : Valuation τ sig (Elt Ideal)) : after (pe2 (F := Ideal)) V (main_arg5 : DevRef τ sig) = V (main_arg5 : DevRef τ sig) := by
  unfold pe2; after_results_simp
theorem pe2_keep_arg6 (V : Valuation τ sig (Elt Ideal)) : after (pe2 (F := Ideal)) V (main_arg6 : DevRef τ sig) = V (main_arg6 : DevRef τ sig) := by
  unfold pe2; after_results_simp
theorem pe2_keep_arg7 (V : Valuation τ sig (Elt Ideal)) : after (pe2 (F := Ideal)) V (main_arg7 : DevRef τ sig) = V (main_arg7 : DevRef τ sig) := by
  unfold pe2; after_results_simp
theorem pe2_keep_v29 (V : Valuation τ sig (Elt Ideal)) : after (pe2 (F := Ideal)) V (main_v29 : DevRef τ sig) = V (main_v29 : DevRef τ sig) := by
  unfold pe2; after_results_simp
theorem pe2_keep_v3 (V : Valuation τ sig (Elt Ideal)) : after (pe2 (F := Ideal)) V (main_v3 : DevRef τ sig) = V (main_v3 : DevRef τ sig) := by
  unfold pe2; after_results_simp
theorem pe2_keep_v38 (V : Valuation τ sig (Elt Ideal)) : after (pe2 (F := Ideal)) V (main_v38 : DevRef τ sig) = V (main_v38 : DevRef τ sig) := by
  unfold pe2; after_results_simp
theorem pe2_keep_v6 (V : Valuation τ sig (Elt Ideal)) : after (pe2 (F := Ideal)) V (main_v6 : DevRef τ sig) = V (main_v6 : DevRef τ sig) := by
  unfold pe2; after_results_simp

/-! ## The first layer: the bias and the rectifier -/

theorem e3_act (V : Valuation τ sig (Elt Ideal)) :
    after (pe3 (F := Ideal)) V (main_v56 : DevRef τ sig)
      = Cert.Spec.biasAct (V (main_v52 : DevRef τ sig)) (Cert.Spec.row128 (V (main_v38 : DevRef τ sig))) := by
  unfold pe3
  after_results_simp
  rfl

/-- What this part does not write. -/
theorem pe3_keep_arg4 (V : Valuation τ sig (Elt Ideal)) : after (pe3 (F := Ideal)) V (main_arg4 : DevRef τ sig) = V (main_arg4 : DevRef τ sig) := by
  unfold pe3; after_results_simp
theorem pe3_keep_arg5 (V : Valuation τ sig (Elt Ideal)) : after (pe3 (F := Ideal)) V (main_arg5 : DevRef τ sig) = V (main_arg5 : DevRef τ sig) := by
  unfold pe3; after_results_simp
theorem pe3_keep_arg6 (V : Valuation τ sig (Elt Ideal)) : after (pe3 (F := Ideal)) V (main_arg6 : DevRef τ sig) = V (main_arg6 : DevRef τ sig) := by
  unfold pe3; after_results_simp
theorem pe3_keep_arg7 (V : Valuation τ sig (Elt Ideal)) : after (pe3 (F := Ideal)) V (main_arg7 : DevRef τ sig) = V (main_arg7 : DevRef τ sig) := by
  unfold pe3; after_results_simp
theorem pe3_keep_v29 (V : Valuation τ sig (Elt Ideal)) : after (pe3 (F := Ideal)) V (main_v29 : DevRef τ sig) = V (main_v29 : DevRef τ sig) := by
  unfold pe3; after_results_simp
theorem pe3_keep_v3 (V : Valuation τ sig (Elt Ideal)) : after (pe3 (F := Ideal)) V (main_v3 : DevRef τ sig) = V (main_v3 : DevRef τ sig) := by
  unfold pe3; after_results_simp
theorem pe3_keep_v6 (V : Valuation τ sig (Elt Ideal)) : after (pe3 (F := Ideal)) V (main_v6 : DevRef τ sig) = V (main_v6 : DevRef τ sig) := by
  unfold pe3; after_results_simp

/-! ## The second layer: the dense product -/

theorem f1_lin (V : Valuation τ sig (Elt Ideal)) :
    after (pf1 (F := Ideal)) V (main_v61 : DevRef τ sig)
      = Cert.Spec.lin128 (V (main_v56 : DevRef τ sig)) (Cert.Spec.convW1 (V (main_arg4 : DevRef τ sig))) := by
  unfold pf1
  after_results_simp
  rfl

theorem f1_bias (V : Valuation τ sig (Elt Ideal)) :
    after (pf1 (F := Ideal)) V (main_v60 : DevRef τ sig)
      = Cert.Spec.convB1 (V (main_arg5 : DevRef τ sig)) := by
  unfold pf1
  after_results_simp
  rfl

/-- What this part does not write. -/
theorem pf1_keep_arg6 (V : Valuation τ sig (Elt Ideal)) : after (pf1 (F := Ideal)) V (main_arg6 : DevRef τ sig) = V (main_arg6 : DevRef τ sig) := by
  unfold pf1; after_results_simp
theorem pf1_keep_arg7 (V : Valuation τ sig (Elt Ideal)) : after (pf1 (F := Ideal)) V (main_arg7 : DevRef τ sig) = V (main_arg7 : DevRef τ sig) := by
  unfold pf1; after_results_simp
theorem pf1_keep_v29 (V : Valuation τ sig (Elt Ideal)) : after (pf1 (F := Ideal)) V (main_v29 : DevRef τ sig) = V (main_v29 : DevRef τ sig) := by
  unfold pf1; after_results_simp
theorem pf1_keep_v3 (V : Valuation τ sig (Elt Ideal)) : after (pf1 (F := Ideal)) V (main_v3 : DevRef τ sig) = V (main_v3 : DevRef τ sig) := by
  unfold pf1; after_results_simp
theorem pf1_keep_v6 (V : Valuation τ sig (Elt Ideal)) : after (pf1 (F := Ideal)) V (main_v6 : DevRef τ sig) = V (main_v6 : DevRef τ sig) := by
  unfold pf1; after_results_simp

/-! ## The second layer: the sum over the edges -/

theorem f2_agg (V : Valuation τ sig (Elt Ideal)) :
    after (pf2 (F := Ideal)) V (main_v74 : DevRef τ sig)
      = Cert.Spec.aggOf (V (main_v3 : DevRef τ sig)) (V (main_v6 : DevRef τ sig)) (V (main_v29 : DevRef τ sig)) (V (main_v61 : DevRef τ sig)) := by
  unfold pf2
  after_results_simp
  rfl

/-- What this part does not write. -/
theorem pf2_keep_arg6 (V : Valuation τ sig (Elt Ideal)) : after (pf2 (F := Ideal)) V (main_arg6 : DevRef τ sig) = V (main_arg6 : DevRef τ sig) := by
  unfold pf2; after_results_simp
theorem pf2_keep_arg7 (V : Valuation τ sig (Elt Ideal)) : after (pf2 (F := Ideal)) V (main_arg7 : DevRef τ sig) = V (main_arg7 : DevRef τ sig) := by
  unfold pf2; after_results_simp
theorem pf2_keep_v60 (V : Valuation τ sig (Elt Ideal)) : after (pf2 (F := Ideal)) V (main_v60 : DevRef τ sig) = V (main_v60 : DevRef τ sig) := by
  unfold pf2; after_results_simp

/-! ## The second layer: the bias and the rectifier -/

theorem f3_act (V : Valuation τ sig (Elt Ideal)) :
    after (pf3 (F := Ideal)) V (main_v78 : DevRef τ sig)
      = Cert.Spec.biasAct (V (main_v74 : DevRef τ sig)) (Cert.Spec.row128 (V (main_v60 : DevRef τ sig))) := by
  unfold pf3
  after_results_simp
  rfl

/-- What this part does not write. -/
theorem pf3_keep_arg6 (V : Valuation τ sig (Elt Ideal)) : after (pf3 (F := Ideal)) V (main_arg6 : DevRef τ sig) = V (main_arg6 : DevRef τ sig) := by
  unfold pf3; after_results_simp
theorem pf3_keep_arg7 (V : Valuation τ sig (Elt Ideal)) : after (pf3 (F := Ideal)) V (main_arg7 : DevRef τ sig) = V (main_arg7 : DevRef τ sig) := by
  unfold pf3; after_results_simp

/-! ## The decoder -/

theorem g_dec (V : Valuation τ sig (Elt Ideal)) :
    after (pg (F := Ideal)) V (main_v82 : DevRef τ sig)
      = Cert.Spec.decLin (V (main_v78 : DevRef τ sig)) (V (main_arg6 : DevRef τ sig)) (Cert.Spec.row64 (V (main_arg7 : DevRef τ sig))) := by
  unfold pg
  after_results_simp
  rfl

end Read

/-! ## The whole line -/

/-- The fold at the result buffer is the specification's network of the arguments' contents: the parts chained
    from the last to the first, each part's result read at the earlier parts' results and each kept buffer read
    through the parts that leave it alone, then the pieces folded back to the specification's. -/
theorem out_eq (V : Valuation τ sig (Elt Ideal)) :
    after (ops (F := Ideal)) V (main_v82 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split]
  simp only [after_app]
  rw [
    g_dec, f3_act, pf3_keep_arg6, pf3_keep_arg7, f2_agg, pf2_keep_arg6, pf2_keep_arg7, pf2_keep_v60,
    f1_lin, f1_bias, pf1_keep_arg6, pf1_keep_arg7, pf1_keep_v29, pf1_keep_v3, pf1_keep_v6, e3_act,
    pe3_keep_arg4, pe3_keep_arg5, pe3_keep_arg6, pe3_keep_arg7, pe3_keep_v29, pe3_keep_v3, pe3_keep_v6, e2_agg,
    pe2_keep_arg4, pe2_keep_arg5, pe2_keep_arg6, pe2_keep_arg7, pe2_keep_v29, pe2_keep_v3, pe2_keep_v38, pe2_keep_v6,
    e1_lin, e1_bias, pe1_keep_arg4, pe1_keep_arg5, pe1_keep_arg6, pe1_keep_arg7, pe1_keep_v29, pe1_keep_v3,
    pe1_keep_v6, d_enc, pd_keep_arg4, pd_keep_arg5, pd_keep_arg6, pd_keep_arg7, pd_keep_v29, pd_keep_v3,
    pd_keep_v6, c_norm, pc_keep_arg0, pc_keep_arg2, pc_keep_arg3, pc_keep_arg4, pc_keep_arg5, pc_keep_arg6,
    pc_keep_arg7, pc_keep_v3, pc_keep_v6, b_dinv, pb_keep_arg0, pb_keep_arg2, pb_keep_arg3, pb_keep_arg4,
    pb_keep_arg5, pb_keep_arg6, pb_keep_arg7, pb_keep_v3, pb_keep_v6, a_src, a_dst, a_pos,
    a_rsqrt, a_zero, pa_keep_arg0, pa_keep_arg2, pa_keep_arg3, pa_keep_arg4, pa_keep_arg5, pa_keep_arg6,
    pa_keep_arg7]
  rw [← Cert.Spec.dinv_eq, ← Cert.Spec.norm_eq, ← Cert.Spec.agg_eq]
  rfl

/-- No operation writes argument 0. -/
theorem arg0_eq (V : Valuation τ sig (Elt Ideal)) :
    after (ops (F := Ideal)) V (main_arg0 : DevRef τ sig) = V (main_arg0 : DevRef τ sig) := by
  after_results_simp

/-- No operation writes argument 1. -/
theorem arg1_eq (V : Valuation τ sig (Elt Ideal)) :
    after (ops (F := Ideal)) V (main_arg1 : DevRef τ sig) = V (main_arg1 : DevRef τ sig) := by
  after_results_simp

/-- No operation writes argument 2. -/
theorem arg2_eq (V : Valuation τ sig (Elt Ideal)) :
    after (ops (F := Ideal)) V (main_arg2 : DevRef τ sig) = V (main_arg2 : DevRef τ sig) := by
  after_results_simp

/-- No operation writes argument 3. -/
theorem arg3_eq (V : Valuation τ sig (Elt Ideal)) :
    after (ops (F := Ideal)) V (main_arg3 : DevRef τ sig) = V (main_arg3 : DevRef τ sig) := by
  after_results_simp

/-- No operation writes argument 4. -/
theorem arg4_eq (V : Valuation τ sig (Elt Ideal)) :
    after (ops (F := Ideal)) V (main_arg4 : DevRef τ sig) = V (main_arg4 : DevRef τ sig) := by
  after_results_simp

/-- No operation writes argument 5. -/
theorem arg5_eq (V : Valuation τ sig (Elt Ideal)) :
    after (ops (F := Ideal)) V (main_arg5 : DevRef τ sig) = V (main_arg5 : DevRef τ sig) := by
  after_results_simp

/-- No operation writes argument 6. -/
theorem arg6_eq (V : Valuation τ sig (Elt Ideal)) :
    after (ops (F := Ideal)) V (main_arg6 : DevRef τ sig) = V (main_arg6 : DevRef τ sig) := by
  after_results_simp

/-- No operation writes argument 7. -/
theorem arg7_eq (V : Valuation τ sig (Elt Ideal)) :
    after (ops (F := Ideal)) V (main_arg7 : DevRef τ sig) = V (main_arg7 : DevRef τ sig) := by
  after_results_simp

/-- From any memory with zero counters, every weakly fair execution of the reference program terminates with the
    result buffer at `Cert.Spec.out` of the arguments' contents at launch, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v82)
          = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c => ⟨(h c main_v82).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_all m ρ)

end Cert.ReferenceIdeal.RefRun

end
-- ==== Proof.lean ====
/-
  A two-layer graph convolution network with an encoder and a decoder, as a tiled program against its plain reference:
  on the extended reals the two compute one function of the arguments.

  Both programs build the same edge lists, degrees and per-edge normalisation with the same host operations, and both
  gather, scale and scatter-add the same way; they differ in the dense and pointwise stages, which the tiled program runs
  as six kernels over ten blocks of 5000 rows each and the reference as whole-array operations. A block of rows of a matrix
  product accumulated from zero is the same sum, term by term, as the corresponding rows of the whole product; a bias laid
  out as one row and repeated over a block is the bias repeated over the whole array; the rectifier acts entry by entry;
  narrowing an operand to half precision is the identity on the extended reals; and where the tiled program adds a zero
  bias row the reference adds nothing, `a + 0 = a`. No step moves a factor across a sum, so the finiteness of the
  inputs is never used. `Cert.Spec.out` is the common function; the tiled program's result is read off its run
  boundary by boundary, the reference's by unfolding its operations.
-/
import proofs.«178511_j28037546508929_1_alg».proof.Defs
import proofs.«178511_j28037546508929_1_alg».proof.Proof.Gen.Kernel
import proofs.«178511_j28037546508929_1_alg».proof.Proof.Gen.Kernel.Frame
import proofs.«178511_j28037546508929_1_alg».proof.Proof.Gen.KernelIdeal
import proofs.«178511_j28037546508929_1_alg».proof.Proof.Gen.KernelIdeal.Frame
import proofs.«178511_j28037546508929_1_alg».proof.Proof.Gen.ReferenceIdeal
import proofs.«178511_j28037546508929_1_alg».proof.Proof.Gen.Pre_finite_inputs
import proofs.«178511_j28037546508929_1_alg».proof.Proof.KRun
import proofs.«178511_j28037546508929_1_alg».proof.Proof.KChain
import proofs.«178511_j28037546508929_1_alg».proof.Proof.RefValue

noncomputable section

namespace Cert.Proof

open Idealize.ShloMosaic Idealize.ShloMosaic.TcCoe Idealize.SL.Sem

/-- The tiled program at the word level runs to the end and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to the end and leaves its arguments alone: its run with the result dropped. -/
theorem frame_ri : Cert.frame_ReferenceIdeal := fun m ρ _ =>
  (θ_run Cert.ReferenceIdeal.defs _ _).mono (fun _ h c => (h c).2) (Cert.ReferenceIdeal.RefRun.run m ρ)

/-- Both idealized programs end with the network's function of the arguments in their result buffers. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
